-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128x128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩

abbrev nBuf : Space → Nat
  | .hbm => 106
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S50000x128, .bf16⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .bf16⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S50000x128, .f32⟩
  | .hbm, ⟨66, _⟩ => ⟨S50000x128, .bf16⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .bf16⟩
  | .hbm, ⟨76, _⟩ => ⟨S650000x128, .f32⟩
  | .hbm, ⟨77, _⟩ => ⟨S650000x1, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S50000x128, .f32⟩
  | .hbm, ⟨85, _⟩ => ⟨S128x128, .f32⟩
  | .hbm, ⟨86, _⟩ => ⟨S50000x128, .bf16⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x128, .bf16⟩
  | .hbm, ⟨96, _⟩ => ⟨S650000x128, .f32⟩
  | .hbm, ⟨97, _⟩ => ⟨S650000x1, .f32⟩
  | .hbm, ⟨98, _⟩ => ⟨S650000x128, .f32⟩
  | .hbm, ⟨99, _⟩ => ⟨S650000x128, .f32⟩
  | .hbm, ⟨100, _⟩ => ⟨S_, .f32⟩
  | .hbm, ⟨101, _⟩ => ⟨S50000x128, .f32⟩
  | .hbm, ⟨102, _⟩ => ⟨S650000x1, .i32⟩
  | .hbm, ⟨103, _⟩ => ⟨S50000x128, .f32⟩
  | .hbm, ⟨104, _⟩ => ⟨S1x128, .f32⟩
  | .hbm, ⟨105, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .bf16⟩
  | .local _ .vmem, ⟨16, _⟩ => ⟨S2000x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S2000x128_S2000x128 : S2000x128.ShapeCasts S2000x128
  shapeCasts_S128x128_S128x128 : S128x128.ShapeCasts S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S50000x128, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S650000x1, .f32⟩
  | .hbm, ⟨55, _⟩ => ⟨S650000x128, .f32⟩
  | .hbm, ⟨56, _⟩ => ⟨S650000x128, .f32⟩
  | .hbm, ⟨57, _⟩ => ⟨S_, .f32⟩
  | .hbm, ⟨58, _⟩ => ⟨S50000x128, .f32⟩
  | .hbm, ⟨59, _⟩ => ⟨S650000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x1, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S50000x128, .f32⟩
  | .hbm, ⟨81, _⟩ => ⟨S650000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S650000, .i32⟩
  | .hbm, ⟨91, _⟩ => ⟨S650000, .i1⟩
  | .hbm, ⟨92, _⟩ => ⟨S_, .i32⟩
  | .hbm, ⟨93, _⟩ => ⟨S650000, .i32⟩
  | .hbm, ⟨94, _⟩ => ⟨S650000, .i32⟩
  | .hbm, ⟨95, _⟩ => ⟨S650000, .i32⟩
  | .hbm, ⟨96, _⟩ => ⟨S650000x1, .i32⟩
  | .hbm, ⟨97, _⟩ => ⟨S650000x128, .f32⟩
  | .hbm, ⟨98, _⟩ => ⟨S650000x1, .f32⟩
  | .hbm, ⟨99, _⟩ => ⟨S650000x128, .f32⟩
  | .hbm, ⟨100, _⟩ => ⟨S650000x128, .f32⟩
  | .hbm, ⟨101, _⟩ => ⟨S_, .f32⟩
  | .hbm, ⟨102, _⟩ => ⟨S50000x128, .f32⟩
  | .hbm, ⟨103, _⟩ => ⟨S650000x1, .i32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel's run with its result named.  @main is eleven segments: five stretches of host operations and six
  kernel regions.  Every weakly fair execution ends with every unscoped buffer holding the last boundary's contents;
  read at the result buffer this gives the result array, and read at the argument buffers it gives back the arguments.
-/
import proofs.«127493_j38714835206720_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.ValueRun

end
-- ==== Proof.Spec.lean ====
/-
  The graph convolution both programs compute, written once as whole-array functions of their operands.

  An edge list e : i32[2, 600000] is extended by one self-loop per node: the source words are row 0 of e followed by
  0 … 49999, the destination words row 1 of e followed by 0 … 49999 (650000 words each).  The degree of node j counts
  the edges whose destination word names j; a node's weight is its degree to the power -1/2; an edge's weight is the
  product of the weights of its two end nodes, each looked up at the edge's word wrapped (a negative word has 50000
  added) and clamped into range.  One aggregation step takes features h : [50000, 128], looks up the row of h at each
  edge's source, scales it by the edge's weight, and adds it into the row its destination word names.

  The reference applies   x ↦ max (A (x · W) + x · R) 0   twice, then  A (x · W3) · Wh + bh.
  The kernel clamps the degree from below by 1 before the power, and computes the last layer as  A (x · (W3 · Wh)) + bh.
-/
import proofs.«127493_j38714835206720_2_alg».proof.Proof.Gen.ReferenceIdeal
import Idealize.ShloMosaic.PureOps.Ideal

noncomputable section

namespace Cert.Gcn

open Idealize.ShloMosaic Cert.ReferenceIdeal Cert.ReferenceIdeal.Gen

/-- Node features, a weight matrix, a word per edge, a real per edge, a real per node. -/
abbrev Feat := FVec Ideal S50000x128 .f32
abbrev Wt := FVec Ideal S128x128 .f32
abbrev EdgeW := IVec S650000 32
abbrev EdgeR := FVec Ideal S650000 .f32
abbrev NodeR := FVec Ideal S50000 .f32
abbrev Edges := IVec S2x600000 32
abbrev Bias := FVec Ideal S128 .f32

/-- The source words: row 0 of the edge list, then one self-loop per node. -/
def rowW (e : Edges) : EdgeW :=
  concatenate S650000 0 [⟨S600000, shapeCast _ (extractStridedSlice S1x600000 ![0, 0] e slices_S2x600000_S1x600000_0_0) shapeCasts_S1x600000_S600000⟩, ⟨S50000, iotaInDim S50000 32 0⟩] concatenates_S600000_S50000_S650000_d0

/-- The destination words: row 1 of the edge list, then one self-loop per node. -/
def colW (e : Edges) : EdgeW :=
  concatenate S650000 0 [⟨S600000, shapeCast _ (extractStridedSlice S1x600000 ![1, 0] e slices_S2x600000_S1x600000_1_0) shapeCasts_S1x600000_S600000⟩, ⟨S50000, iotaInDim S50000 32 0⟩] concatenates_S600000_S50000_S650000_d0

/-- A negative word has the node count added. -/
def wrapW (v : EdgeW) : EdgeW :=
  select (cmpi .slt v (broadcastInDim S650000 ![] bcast_S_S650000 (constantI S_ 32 0#32)))
    (addi v (broadcastInDim S650000 ![] bcast_S_S650000 (constantI S_ 32 50000#32))) v

/-- Words laid out as a column of start indices. -/
def colI (v : EdgeW) : IVec S650000x1 32 := broadcastInDim S650000x1 ![0] bcast_S650000_S650000x1_0 v

/-- The degree: a one added, for every edge, at the node its destination word names. -/
def deg (col : EdgeW) : NodeR :=
  Host.scatterAdd (F := Ideal) scatter_S50000_S650000x1_S650000_n_0_0_1
    (broadcastInDim S50000 ![] bcast_S_S50000 (constant (F := Ideal) S_ .f32 0x00000000#32)) (colI col)
    (broadcastInDim S650000 ![] bcast_S_S650000 (constant (F := Ideal) S_ .f32 0x3F800000#32))

/-- The degree clamped from below by one. -/
def clampOne (d : NodeR) : NodeR :=
  maximumf (F := Ideal) d (broadcastInDim S50000 ![] bcast_S_S50000 (constant (F := Ideal) S_ .f32 0x3F800000#32))

/-- A node's weight: its degree to the power -1/2. -/
def dinv (d : NodeR) : NodeR :=
  Host.powf (F := Ideal) d (broadcastInDim S50000 ![] bcast_S_S50000 (constant (F := Ideal) S_ .f32 0xBF000000#32))

/-- An edge's weight: the product of the weights of its two end nodes. -/
def norm (row col : EdgeW) (dv : NodeR) : EdgeR :=
  mulf (F := Ideal) (Host.gather gather_S50000_S650000x1_S650000_n_0_n_n_0_1_1 dv (colI (wrapW row)))
    (Host.gather gather_S50000_S650000x1_S650000_n_0_n_n_0_1_1 dv (colI (wrapW col)))

/-- One aggregation step: the source rows of h, scaled by the edge weights, added into the destination rows. -/
def agg (row col : EdgeW) (nrm : EdgeR) (h : Feat) : Feat :=
  Host.scatterAdd (F := Ideal) scatter_S50000x128_S650000x1_S650000x128_1_0_0_1
    (broadcastInDim S50000x128 ![] bcast_S_S50000x128 (constant (F := Ideal) S_ .f32 0x00000000#32)) (colI col)
    (mulf (F := Ideal) (Host.gather gather_S50000x128_S650000x1_S650000x128_1_0_n_n_0_1_1128 h (colI (wrapW row)))
      (broadcastInDim S650000x128 ![0, 1] bcast_S650000x1_S650000x128_0_1 (broadcastInDim S650000x1 ![0] bcast_S650000_S650000x1_0 nrm)))

/-- The host's product of node features with a weight matrix. -/
def dotH (x : Feat) (w : Wt) : Feat :=
  Host.dotGeneral (F := Ideal) dot_S50000x128_S128x128_S50000x128_1_0_0_1_n_n none x w

/-- The maximum with zero. -/
def relu0 (y : Feat) : Feat :=
  maximumf (F := Ideal) y (broadcastInDim S50000x128 ![] bcast_S_S50000x128 (constant (F := Ideal) S_ .f32 0x00000000#32))

/-- A bias vector laid along every row. -/
def biasAll (b : Bias) : Feat :=
  broadcastInDim S50000x128 ![0, 1] bcast_S1x128_S50000x128_0_1 (broadcastInDim S1x128 ![1] bcast_S128_S1x128_1 b)

/-- One residual layer as the reference computes it. -/
def layerR (row col : EdgeW) (nrm : EdgeR) (x : Feat) (w r : Wt) : Feat :=
  relu0 (addf (F := Ideal) (agg row col nrm (dotH x w)) (dotH x r))

/-- The reference's result. -/
def refOut (x : Feat) (e : Edges) (w1 r1 w2 r2 w3 wh : Wt) (bh : Bias) : Feat :=
  addf (F := Ideal)
    (dotH (agg (rowW e) (colW e) (norm (rowW e) (colW e) (dinv (deg (colW e))))
      (dotH (layerR (rowW e) (colW e) (norm (rowW e) (colW e) (dinv (deg (colW e))))
        (layerR (rowW e) (colW e) (norm (rowW e) (colW e) (dinv (deg (colW e)))) x w1 r1) w2 r2) w3)) wh)
    (biasAll bh)

end Cert.Gcn

end
-- ==== Proof.RefSide.lean ====
/-
  The reference's result is the graph convolution of the specification: its run's term, opened, is the composition of
  the shared whole-array functions, operation by operation.
-/
import proofs.«127493_j38714835206720_2_alg».proof.Proof.Spec
import proofs.«127493_j38714835206720_2_alg».proof.Proof.Gen.ReferenceIdeal.Run

noncomputable section

namespace Cert.Gcn

open Idealize.ShloMosaic Idealize.ShloMosaic.TcCoe Idealize.SL.Sem Cert.ReferenceIdeal Cert.ReferenceIdeal.Gen

set_option maxRecDepth 8192 in
theorem ref_result (m : (ℓ : Loc nD τ sig) → Buf (Elt Ideal) ℓ) (c : Dev nD) :
    Cert.ReferenceIdeal.Value.res_main_v79 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v79; rfl

end Cert.Gcn

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.KSpec.lean ====
/-
  The kernel's computation as whole-array functions.  Each kernel region leaves, in its output array, a function of
  its input arrays read index by index: a product of node features with a weight matrix (the contraction written as a
  sum over the 128 inner positions); the maximum with zero of an aggregated array plus such a product; an array plus a
  one-row bias.  Between the regions the host applies the same aggregation step as the reference, with the degree
  clamped from below by one, and forms the product of the last two weight matrices once.
-/
import proofs.«127493_j38714835206720_2_alg».proof.Proof.Spec
import proofs.«127493_j38714835206720_2_alg».proof.Proof.LibMatmul
import proofs.«127493_j38714835206720_2_alg».proof.Proof.Gen.KernelIdeal

noncomputable section

namespace Cert.Gcn

open Idealize.ShloMosaic Idealize.ShloMosaic.ValueIdx Cert.ReferenceIdeal Cert.ReferenceIdeal.Gen

/-- A one-row matrix of 128 entries. -/
abbrev Row := FVec Ideal S1x128 .f32

/-- Node features times a weight matrix, entry (p, q) the sum over k of x (p, k) · w (k, q). -/
def linK (x : Feat) (w : Wt) : Feat := Cert.LibMatmul.MM x w

/-- The maximum with zero of an array plus a product. -/
def combK (a x : Feat) (r : Wt) : Feat := fun i => max (a i + Cert.LibMatmul.MM x r i) 0

/-- An array plus a one-row bias laid along every row. -/
def biasK (a : Feat) (b : Row) : Feat := fun i => a i + b (ix2 (0 : Fin 1) (i 1))

/-- The product of two weight matrices, as the host forms it. -/
def dotW (w3 wh : Wt) : Wt :=
  Host.dotGeneral (F := Ideal) Cert.KernelIdeal.dot_S128x128_S128x128_S128x128_1_0_0_1_n_n none w3 wh

/-- The bias vector recast as one row. -/
def biasRow (b : Bias) : Row := shapeCast S1x128 b Cert.KernelIdeal.Gen.shapeCasts_S128_S1x128

/-- The edge weights with the degree clamped (the kernel's) and as counted (the reference's). -/
def nrmK (e : Edges) : EdgeR := norm (rowW e) (colW e) (dinv (clampOne (deg (colW e))))
def nrmR (e : Edges) : EdgeR := norm (rowW e) (colW e) (dinv (deg (colW e)))

/-- The kernel's first and second layers and its result. -/
def x1K (x : Feat) (e : Edges) (w1 r1 : Wt) : Feat :=
  combK (agg (rowW e) (colW e) (nrmK e) (linK x w1)) x r1
def x2K (x : Feat) (e : Edges) (w1 r1 w2 r2 : Wt) : Feat :=
  combK (agg (rowW e) (colW e) (nrmK e) (linK (x1K x e w1 r1) w2)) (x1K x e w1 r1) r2
def kerOut (x : Feat) (e : Edges) (w1 r1 w2 r2 w3 wh : Wt) (bh : Bias) : Feat :=
  biasK (agg (rowW e) (colW e) (nrmK e) (linK (x2K x e w1 r1 w2 r2) (dotW w3 wh))) (biasRow bh)

end Cert.Gcn

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«127493_j38714835206720_2_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.RegionsLin.lean ====
/-
  What each projection region leaves in its output array: the product of the streamed features with the resident
  weight matrix.  A region walks 25 grid points; point t stages rows 2000·t … 2000·t + 1999 of the features (all 128
  columns) and the whole weight matrix, and writes those rows of the output.  A row block of a matrix product is the
  product of the row block with the whole right factor, so block t of the output is block t of the whole product, and
  the 25 blocks cover the array.
-/
import proofs.«127493_j38714835206720_2_alg».proof.Proof.KSpec
import proofs.«127493_j38714835206720_2_alg».proof.Proof.LibMatmulBlock
import proofs.«127493_j38714835206720_2_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace Lin

/-! ## The body's arithmetic

  At the ideal values a rounding to a narrower format and a recast to the same shape change nothing, and a
  product accumulated into the zero matrix is the matrix product: each body computes the product of its feature
  block with its weight block. -/

theorem pay0 (x : FVec Ideal S2000x128 .f32) (w : FVec Ideal S128x128 .f32) :
    k0_pay1 (F := Ideal) x w = Cert.LibMatmul.MM x w := by
  unfold k0_pay1
  exact Cert.LibMatmul.matmul_zero_eq dot_S2000x128_S128x128_S2000x128_1_0_0_1_n_n rfl rfl rfl rfl rfl rfl none x w

theorem pay2 (x : FVec Ideal S2000x128 .f32) (w : FVec Ideal S128x128 .f32) :
    k2_pay1 (F := Ideal) x w = Cert.LibMatmul.MM x w := by
  unfold k2_pay1
  simp only [shapeCast_self]
  exact Cert.LibMatmul.matmul_zero_eq dot_S2000x128_S128x128_S2000x128_1_0_0_1_n_n rfl rfl rfl rfl rfl rfl none x w

theorem pay4 (x : FVec Ideal S2000x128 .f32) (w : FVec Ideal S128x128 .f32) :
    k4_pay1 (F := Ideal) x w = Cert.LibMatmul.MM x w := by
  unfold k4_pay1
  simp only [shapeCast_self]
  exact Cert.LibMatmul.matmul_zero_eq dot_S2000x128_S128x128_S2000x128_1_0_0_1_n_n rfl rfl rfl rfl rfl rfl none x w

/-- The offsets of a whole-buffer access are zero on both axes. -/
theorem zeroOff : (![0, 0] : Fin 2 → Nat) = fun _ => 0 := funext fun a => by fin_cases a <;> rfl

/-! ## Region 0 -/

/-- The index maps of region 0, decided over its 25 points: the feature window and the output window sit at row
    block t and column block 0, the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: the product of rows 2000·t … 2000·t + 1999 of the
    features with the whole weight matrix is those rows of the product. -/
theorem flushed0 (c : Dev nD) (t : Fin cfg0.N) :
    (dat0 (F := Ideal) V c).flushed 2 t
      = ((cfg0.win 2).blk t).view.read (Elt Ideal) (Cert.Gcn.linK (V c main_arg0) (V c main_arg2)) := by
  show (cfg0.win 2).cut (grid0.coords t) ((dat0 (F := Ideal) V c).after 2 t) = _
  rw [after0_2]
  unfold out0_2
  rw [View.canon_unit_zero zeroOff]
  simp only [View.ld_unit_zero (S := S2000x128) zeroOff, View.ld_unit_zero (S := S128x128) zeroOff]
  rw [pay0]
  obtain ⟨e0, e1, e2, e3, e4, e5⟩ := idx0 t
  funext y
  show Cert.LibMatmul.MM (fun z => V c main_arg0 (((cfg0.win 0).blk t).view.emb z))
      (fun z => V c main_arg2 (((cfg0.win 1).blk t).view.emb z)) y
    = Cert.LibMatmul.MM (V c main_arg0) (V c main_arg2) (((cfg0.win 2).blk t).view.emb y)
  refine Cert.LibMatmul.MM_block (V c main_arg0) (V c main_arg2) _ _ _ (2000 * t.val) 0 ?_ ?_ ?_ ?_ ?_ ?_ y
  · intro z; show win0_0.index t (0 : Fin 2) * 2000 + 1 * (z 0).val = _; omega
  · intro z; show win0_0.index t (1 : Fin 2) * 128 + 1 * (z 1).val = _; omega
  · intro z; show win0_1.index t (0 : Fin 2) * 128 + 1 * (z 0).val = _; omega
  · intro z; show win0_1.index t (1 : Fin 2) * 128 + 1 * (z 1).val = _; omega
  · intro z; show win0_2.index t (0 : Fin 2) * 2000 + 1 * (z 0).val = _; omega
  · intro z; show win0_2.index t (1 : Fin 2) * 128 + 1 * (z 1).val = _; omega

/-- An index of the output array is in point t's block iff each coordinate is in the block's range on its axis. -/
theorem memBlk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Row r of the output lies in the block of point r / 2000, and every point writes its block back. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_2 t, ?_⟩
  rw [memBlk0]
  obtain ⟨-, -, -, -, e4, e5⟩ := idx0 t
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-! ## Region 2 -/

/-- The index maps of region 2, decided over its 25 points: the feature window and the output window sit at row
    block t and column block 0, the weight window at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: the product of rows 2000·t … 2000·t + 1999 of the
    features with the whole weight matrix is those rows of the product. -/
theorem flushed2 (c : Dev nD) (t : Fin cfg2.N) :
    (dat2 (F := Ideal) V c).flushed 2 t
      = ((cfg2.win 2).blk t).view.read (Elt Ideal) (Cert.Gcn.linK (V c main_v45) (V c main_arg4)) := by
  show (cfg2.win 2).cut (grid2.coords t) ((dat2 (F := Ideal) V c).after 2 t) = _
  rw [after2_2]
  unfold out2_2
  rw [View.canon_unit_zero zeroOff]
  simp only [View.ld_unit_zero (S := S2000x128) zeroOff, View.ld_unit_zero (S := S128x128) zeroOff]
  rw [pay2]
  obtain ⟨e0, e1, e2, e3, e4, e5⟩ := idx2 t
  funext y
  show Cert.LibMatmul.MM (fun z => V c main_v45 (((cfg2.win 0).blk t).view.emb z))
      (fun z => V c main_arg4 (((cfg2.win 1).blk t).view.emb z)) y
    = Cert.LibMatmul.MM (V c main_v45) (V c main_arg4) (((cfg2.win 2).blk t).view.emb y)
  refine Cert.LibMatmul.MM_block (V c main_v45) (V c main_arg4) _ _ _ (2000 * t.val) 0 ?_ ?_ ?_ ?_ ?_ ?_ y
  · intro z; show win2_0.index t (0 : Fin 2) * 2000 + 1 * (z 0).val = _; omega
  · intro z; show win2_0.index t (1 : Fin 2) * 128 + 1 * (z 1).val = _; omega
  · intro z; show win2_1.index t (0 : Fin 2) * 128 + 1 * (z 0).val = _; omega
  · intro z; show win2_1.index t (1 : Fin 2) * 128 + 1 * (z 1).val = _; omega
  · intro z; show win2_2.index t (0 : Fin 2) * 2000 + 1 * (z 0).val = _; omega
  · intro z; show win2_2.index t (1 : Fin 2) * 128 + 1 * (z 1).val = _; omega

/-- An index of the output array is in point t's block iff each coordinate is in the block's range on its axis. -/
theorem memBlk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v46).slice (win2_2.rect t)).set ↔ _
  rw [View.set_slice_whole, Rect.mem_set_unit]
  exact Iff.rfl

/-- Row r of the output lies in the block of point r / 2000, and every point writes its block back. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  refine ⟨t, flush2_2 t, ?_⟩
  rw [memBlk2]
  obtain ⟨-, -, -, -, e4, e5⟩ := idx2 t
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-! ## Region 4 -/

/-- The index maps of region 4, decided over its 25 points: the feature window and the output window sit at row
    block t and column block 0, the weight window at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product: the product of rows 2000·t … 2000·t + 1999 of the
    features with the whole weight matrix is those rows of the product. -/
theorem flushed4 (c : Dev nD) (t : Fin cfg4.N) :
    (dat4 (F := Ideal) V c).flushed 2 t
      = ((cfg4.win 2).blk t).view.read (Elt Ideal) (Cert.Gcn.linK (V c main_v61) (V c main_v62)) := by
  show (cfg4.win 2).cut (grid4.coords t) ((dat4 (F := Ideal) V c).after 2 t) = _
  rw [after4_2]
  unfold out4_2
  rw [View.canon_unit_zero zeroOff]
  simp only [View.ld_unit_zero (S := S2000x128) zeroOff, View.ld_unit_zero (S := S128x128) zeroOff]
  rw [pay4]
  obtain ⟨e0, e1, e2, e3, e4, e5⟩ := idx4 t
  funext y
  show Cert.LibMatmul.MM (fun z => V c main_v61 (((cfg4.win 0).blk t).view.emb z))
      (fun z => V c main_v62 (((cfg4.win 1).blk t).view.emb z)) y
    = Cert.LibMatmul.MM (V c main_v61) (V c main_v62) (((cfg4.win 2).blk t).view.emb y)
  refine Cert.LibMatmul.MM_block (V c main_v61) (V c main_v62) _ _ _ (2000 * t.val) 0 ?_ ?_ ?_ ?_ ?_ ?_ y
  · intro z; show win4_0.index t (0 : Fin 2) * 2000 + 1 * (z 0).val = _; omega
  · intro z; show win4_0.index t (1 : Fin 2) * 128 + 1 * (z 1).val = _; omega
  · intro z; show win4_1.index t (0 : Fin 2) * 128 + 1 * (z 0).val = _; omega
  · intro z; show win4_1.index t (1 : Fin 2) * 128 + 1 * (z 1).val = _; omega
  · intro z; show win4_2.index t (0 : Fin 2) * 2000 + 1 * (z 0).val = _; omega
  · intro z; show win4_2.index t (1 : Fin 2) * 128 + 1 * (z 1).val = _; omega

/-- An index of the output array is in point t's block iff each coordinate is in the block's range on its axis. -/
theorem memBlk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v63).slice (win4_2.rect t)).set ↔ _
  rw [View.set_slice_whole, Rect.mem_set_unit]
  exact Iff.rfl

/-- Row r of the output lies in the block of point r / 2000, and every point writes its block back. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  refine ⟨t, flush4_2 t, ?_⟩
  rw [memBlk4]
  obtain ⟨-, -, -, -, e4, e5⟩ := idx4 t
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 128 ≤ (i 1).val ∧ (i 1).val < win4_2.index t (1 : Fin 2) * 128 + 128
    omega

end Lin

/-- Region 0: the first projection. -/
theorem lin0 (c : Dev nD) :
    (dat0 (F := Ideal) V c).arrAt 2 cfg0.N = Cert.Gcn.linK (V c main_arg0) (V c main_arg2) := by
  exact (dat0 (F := Ideal) V c).arrAt_eq_of_cover 2 (Cert.Gcn.linK (V c main_arg0) (V c main_arg2))
    (fun t _ => Lin.flushed0 V c t) Lin.cover0

/-- Region 2: the second projection. -/
theorem lin2 (c : Dev nD) :
    (dat2 (F := Ideal) V c).arrAt 2 cfg2.N = Cert.Gcn.linK (V c main_v45) (V c main_arg4) := by
  exact (dat2 (F := Ideal) V c).arrAt_eq_of_cover 2 (Cert.Gcn.linK (V c main_v45) (V c main_arg4))
    (fun t _ => Lin.flushed2 V c t) Lin.cover2

/-- Region 4: the third projection, by the folded weight matrix. -/
theorem lin4 (c : Dev nD) :
    (dat4 (F := Ideal) V c).arrAt 2 cfg4.N = Cert.Gcn.linK (V c main_v61) (V c main_v62) := by
  exact (dat4 (F := Ideal) V c).arrAt_eq_of_cover 2 (Cert.Gcn.linK (V c main_v61) (V c main_v62))
    (fun t _ => Lin.flushed4 V c t) Lin.cover4

end Cert.KernelIdeal.Regions

end
-- ==== Proof.RegionsComb.lean ====
/-
  What the two combine regions and the bias region leave in their output arrays.  A combine region walks 25 grid
  points; point t stages rows 2000·t … 2000·t + 1999 of the aggregated array and of the layer's input, and the whole
  residual matrix, and writes, in those rows, the maximum with zero of the aggregated entry plus the product's entry.
  The bias region adds, in those rows, the one-row bias to the aggregated array.  Entry by entry these are functions of
  the whole arrays, a row block of a product being the product of the row block, and the 25 blocks cover the array.
-/
import proofs.«127493_j38714835206720_2_alg».proof.Proof.KSpec
import proofs.«127493_j38714835206720_2_alg».proof.Proof.LibMatmulBlock
import proofs.«127493_j38714835206720_2_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Cert.KernelIdeal Cert.KernelIdeal.Gen

namespace Comb

open Idealize.ShloMosaic.ValueIdx Idealize.ShloMosaic.Pipeline

/-- The zero offsets of a whole-buffer access, as a constant function. -/
theorem zero_offsets : (![0, 0] : Fin 2 → Nat) = fun _ => 0 := funext fun a => by fin_cases a <;> rfl

/-! ## The bodies' arithmetic on a block -/

/-- On a block of 2000 rows: the maximum with zero of the aggregated block plus the product of the input's block
    with the residual matrix. -/
def blockComb (a x : FVec Ideal S2000x128 .f32) (r : FVec Ideal S128x128 .f32) : FVec Ideal S2000x128 .f32 :=
  fun y => max (a y + Cert.LibMatmul.MM x r y) 0

/-- On a block of 2000 rows: the aggregated block plus the bias row along every row. -/
def blockBias (a : FVec Ideal S2000x128 .f32) (b : FVec Ideal S1x128 .f32) : FVec Ideal S2000x128 .f32 :=
  fun y => a y + b (ix2 (0 : Fin 1) (y 1))

/-- The product inside a combine body: the roundings are the identity on extended reals and the accumulator is zero. -/
theorem body_product (x : FVec Ideal S2000x128 .f32) (r : FVec Ideal S128x128 .f32) :
    matmul (F := Ideal) dot_S2000x128_S128x128_S2000x128_1_0_0_1_n_n none (truncf .bf16 x bitsLt_bf16_f32)
      (truncf .bf16 r bitsLt_bf16_f32) (constant (F := Ideal) S2000x128 .f32 0x00000000#32) = Cert.LibMatmul.MM x r :=
  Cert.LibMatmul.matmul_zero_eq dot_S2000x128_S128x128_S2000x128_1_0_0_1_n_n rfl rfl rfl rfl rfl rfl none
    (truncf .bf16 x bitsLt_bf16_f32) (truncf .bf16 r bitsLt_bf16_f32)

/-- The first combine body's arithmetic is `blockComb` of its loaded blocks. -/
theorem body1_eq (x : FVec Ideal S2000x128 .f32) (r : FVec Ideal S128x128 .f32) (a : FVec Ideal S2000x128 .f32) :
    k1_pay1 (F := Ideal) x r a = blockComb a x r := by
  unfold k1_pay1
  funext y
  rw [maximumf_apply, addf_apply, shapeCast_self, body_product, broadcast_apply]
  show max (a y + Cert.LibMatmul.MM x r y) (Ideal.ofBits .f32 0x00000000#32) = _
  rw [Ideal.ofBits_zero_f32]
  rfl

/-- The second combine body's arithmetic is `blockComb` of its loaded blocks: it recasts the input's block to its own
    shape first, which changes nothing. -/
theorem body3_eq (x : FVec Ideal S2000x128 .f32) (r : FVec Ideal S128x128 .f32) (a : FVec Ideal S2000x128 .f32) :
    k3_pay1 (F := Ideal) x r a = blockComb a x r := by
  unfold k3_pay1
  funext y
  rw [maximumf_apply, addf_apply, shapeCast_self, shapeCast_self, body_product, broadcast_apply]
  show max (a y + Cert.LibMatmul.MM x r y) (Ideal.ofBits .f32 0x00000000#32) = _
  rw [Ideal.ofBits_zero_f32]
  rfl

/-- The bias body's arithmetic is `blockBias` of its loaded blocks: the one-row block laid along 2000 rows reads, at
    (p, q), the row's entry (0, q). -/
theorem body5_eq (a : FVec Ideal S2000x128 .f32) (b : FVec Ideal S1x128 .f32) :
    k5_pay1 (F := Ideal) a b = blockBias a b := by
  unfold k5_pay1
  funext y
  rw [addf_apply, shapeCast_self, shapeCast_self]
  rw [broadcastTo_apply b broadcasts_S1x128_S2000x128 y (ix2 (0 : Fin 1) (y 1)) (fun d => by
    match d with
    | ⟨0, _⟩ => rfl
    | ⟨1, _⟩ => rfl)]
  rfl

/-! ## A block of the whole-array function -/

/-- Read the aggregated array and the input through maps that shift rows by `r0` and keep columns, the residual
    matrix through a map that keeps both coordinates: `blockComb` of what is read is, at a block index, the
    whole-array combine at that index shifted by `r0` rows. -/
theorem blockComb_of_shift (A X : FVec Ideal S50000x128 .f32) (R : FVec Ideal S128x128 .f32)
    (eA eX eO : S2000x128.Idx → S50000x128.Idx) (eR : S128x128.Idx → S128x128.Idx) (r0 : Nat)
    (hA0 : ∀ y, (eA y 0).val = r0 + (y 0).val) (hA1 : ∀ y, (eA y 1).val = (y 1).val)
    (hX0 : ∀ y, (eX y 0).val = r0 + (y 0).val) (hX1 : ∀ y, (eX y 1).val = (y 1).val)
    (hR0 : ∀ y, (eR y 0).val = (y 0).val) (hR1 : ∀ y, (eR y 1).val = (y 1).val)
    (hO0 : ∀ y, (eO y 0).val = r0 + (y 0).val) (hO1 : ∀ y, (eO y 1).val = (y 1).val)
    (y : S2000x128.Idx) :
    blockComb (fun y => A (eA y)) (fun y => X (eX y)) (fun y => R (eR y)) y = Cert.Gcn.combK A X R (eO y) := by
  have eAO : eA y = eO y := by
    funext d; apply Fin.ext
    match d with
    | ⟨0, _⟩ => exact (hA0 y).trans (hO0 y).symm
    | ⟨1, _⟩ => exact (hA1 y).trans (hO1 y).symm
  have hmm : Cert.LibMatmul.MM (fun y => X (eX y)) (fun y => R (eR y)) y = Cert.LibMatmul.MM X R (eO y) :=
    Cert.LibMatmul.MM_block X R eX eR eO r0 0 hX0 hX1 hR0 (fun y => by rw [hR1 y]; omega) hO0
      (fun y => by rw [hO1 y]; omega) y
  show max (A (eA y) + Cert.LibMatmul.MM (fun y => X (eX y)) (fun y => R (eR y)) y) 0 = max (A (eO y) + Cert.LibMatmul.MM X R (eO y)) 0
  rw [eAO, hmm]

/-- Read the aggregated array through a map that shifts rows by `r0` and keeps columns, the bias row through a map
    that keeps both coordinates: `blockBias` of what is read is the whole-array bias sum at the shifted index. -/
theorem blockBias_of_shift (A : FVec Ideal S50000x128 .f32) (B : FVec Ideal S1x128 .f32)
    (eA eO : S2000x128.Idx → S50000x128.Idx) (eB : S1x128.Idx → S1x128.Idx) (r0 : Nat)
    (hA0 : ∀ y, (eA y 0).val = r0 + (y 0).val) (hA1 : ∀ y, (eA y 1).val = (y 1).val)
    (hB1 : ∀ y, (eB y 1).val = (y 1).val)
    (hO0 : ∀ y, (eO y 0).val = r0 + (y 0).val) (hO1 : ∀ y, (eO y 1).val = (y 1).val)
    (y : S2000x128.Idx) :
    blockBias (fun y => A (eA y)) (fun y => B (eB y)) y = Cert.Gcn.biasK A B (eO y) := by
  have eAO : eA y = eO y := by
    funext d; apply Fin.ext
    match d with
    | ⟨0, _⟩ => exact (hA0 y).trans (hO0 y).symm
    | ⟨1, _⟩ => exact (hA1 y).trans (hO1 y).symm
  have eBO : eB (ix2 (0 : Fin 1) (y 1)) = ix2 (0 : Fin 1) (eO y 1) := by
    funext d; apply Fin.ext
    match d with
    | ⟨0, _⟩ =>
      have h := (eB (ix2 (0 : Fin 1) (y 1)) 0).isLt
      show (eB (ix2 (0 : Fin 1) (y 1)) 0).val = 0
      exact Nat.lt_one_iff.mp h
    | ⟨1, _⟩ => exact (hB1 _).trans (hO1 y).symm
  show A (eA y) + B (eB (ix2 (0 : Fin 1) (y 1))) = A (eO y) + B (ix2 (0 : Fin 1) (eO y 1))
  exact congrArg₂ (· + ·) (congrArg A eAO) (congrArg B eBO)

/-! ## Region 1 -/

section Region1
variable (V : (c : Dev nD) → (b : Ref sig .tc) → Buf (Elt Ideal) ((c : Thread nD τ).loc b))

/-- The printed index maps of region 1 over its grid: the three streamed windows sit at block row `t`, block column 0;
    the residual matrix at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` of region 1 writes back is block `t` of the whole-array combine. -/
theorem written1 (c : Dev nD) (t : Fin cfg1.N) :
    (dat1 (F := Ideal) V c).flushed 3 t
      = ((cfg1.win 3).blk t).view.read (Elt Ideal) (Cert.Gcn.combK (V c main_v44) (V c main_arg0) (V c main_arg3)) := by
  show (cfg1.win 3).cut (grid1.coords t) ((dat1 (F := Ideal) V c).after 3 t) = _
  rw [after1_3]
  unfold out1_3
  rw [View.canon_unit_zero zero_offsets]
  simp only [View.ld_unit_zero (S := S2000x128) zero_offsets, View.ld_unit_zero (S := S128x128) zero_offsets]
  obtain ⟨a0, a1, x0, x1, r0, r1, o0, o1⟩ := index_maps1 t
  funext y
  refine (congrFun (body1_eq _ _ _) y).trans ?_
  exact blockComb_of_shift (V c main_v44) (V c main_arg0) (V c main_arg3)
    ((cfg1.win 0).blk t).view.emb ((cfg1.win 1).blk t).view.emb ((cfg1.win 3).blk t).view.emb
    ((cfg1.win 2).blk t).view.emb (2000 * t.val)
    (fun y => by show win1_0.index t (0 : Fin 2) * 2000 + 1 * (y 0).val = _; omega)
    (fun y => by show win1_0.index t (1 : Fin 2) * 128 + 1 * (y 1).val = _; omega)
    (fun y => by show win1_1.index t (0 : Fin 2) * 2000 + 1 * (y 0).val = _; omega)
    (fun y => by show win1_1.index t (1 : Fin 2) * 128 + 1 * (y 1).val = _; omega)
    (fun y => by show win1_2.index t (0 : Fin 2) * 128 + 1 * (y 0).val = _; omega)
    (fun y => by show win1_2.index t (1 : Fin 2) * 128 + 1 * (y 1).val = _; omega)
    (fun y => by show win1_3.index t (0 : Fin 2) * 2000 + 1 * (y 0).val = _; omega)
    (fun y => by show win1_3.index t (1 : Fin 2) * 128 + 1 * (y 1).val = _; omega)
    y

/-- An index of the output array is in point `t`'s block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v45).slice (win1_3.rect t)).set ↔ _
  rw [View.set_slice_whole, Rect.mem_set_unit]
  exact Iff.rfl

/-- Row `r` of the output array is in the block of point `r / 2000`, and every point writes back. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, o0, o1⟩ := index_maps1 ⟨(i 0).val / 2000, ht⟩
  refine ⟨⟨(i 0).val / 2000, ht⟩, flush1_3 _, ?_⟩
  rw [mem_block1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [o1]
    omega

end Region1

/-! ## Region 3 -/

section Region3
variable (V : (c : Dev nD) → (b : Ref sig .tc) → Buf (Elt Ideal) ((c : Thread nD τ).loc b))

/-- The printed index maps of region 3 over its grid: the three streamed windows sit at block row `t`, block column 0;
    the residual matrix at block (0, 0). -/
theorem index_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` of region 3 writes back is block `t` of the whole-array combine. -/
theorem written3 (c : Dev nD) (t : Fin cfg3.N) :
    (dat3 (F := Ideal) V c).flushed 3 t
      = ((cfg3.win 3).blk t).view.read (Elt Ideal) (Cert.Gcn.combK (V c main_v60) (V c main_v45) (V c main_arg5)) := by
  show (cfg3.win 3).cut (grid3.coords t) ((dat3 (F := Ideal) V c).after 3 t) = _
  rw [after3_3]
  unfold out3_3
  rw [View.canon_unit_zero zero_offsets]
  simp only [View.ld_unit_zero (S := S2000x128) zero_offsets, View.ld_unit_zero (S := S128x128) zero_offsets]
  obtain ⟨a0, a1, x0, x1, r0, r1, o0, o1⟩ := index_maps3 t
  funext y
  refine (congrFun (body3_eq _ _ _) y).trans ?_
  exact blockComb_of_shift (V c main_v60) (V c main_v45) (V c main_arg5)
    ((cfg3.win 0).blk t).view.emb ((cfg3.win 1).blk t).view.emb ((cfg3.win 3).blk t).view.emb
    ((cfg3.win 2).blk t).view.emb (2000 * t.val)
    (fun y => by show win3_0.index t (0 : Fin 2) * 2000 + 1 * (y 0).val = _; omega)
    (fun y => by show win3_0.index t (1 : Fin 2) * 128 + 1 * (y 1).val = _; omega)
    (fun y => by show win3_1.index t (0 : Fin 2) * 2000 + 1 * (y 0).val = _; omega)
    (fun y => by show win3_1.index t (1 : Fin 2) * 128 + 1 * (y 1).val = _; omega)
    (fun y => by show win3_2.index t (0 : Fin 2) * 128 + 1 * (y 0).val = _; omega)
    (fun y => by show win3_2.index t (1 : Fin 2) * 128 + 1 * (y 1).val = _; omega)
    (fun y => by show win3_3.index t (0 : Fin 2) * 2000 + 1 * (y 0).val = _; omega)
    (fun y => by show win3_3.index t (1 : Fin 2) * 128 + 1 * (y 1).val = _; omega)
    y

/-- An index of the output array is in point `t`'s block iff each coordinate is in the block's range on its axis. -/
theorem mem_block3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v61).slice (win3_3.rect t)).set ↔ _
  rw [View.set_slice_whole, Rect.mem_set_unit]
  exact Iff.rfl

/-- Row `r` of the output array is in the block of point `r / 2000`, and every point writes back. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨-, -, -, -, -, -, o0, o1⟩ := index_maps3 ⟨(i 0).val / 2000, ht⟩
  refine ⟨⟨(i 0).val / 2000, ht⟩, flush3_3 _, ?_⟩
  rw [mem_block3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [o1]
    omega

end Region3

/-! ## Region 5 -/

section Region5
variable (V : (c : Dev nD) → (b : Ref sig .tc) → Buf (Elt Ideal) ((c : Thread nD τ).loc b))

/-- The printed index maps of region 5 over its grid: the two streamed windows sit at block row `t`, block column 0;
    the bias row at block (0, 0). -/
theorem index_maps5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` of region 5 writes back is block `t` of the whole-array bias sum. -/
theorem written5 (c : Dev nD) (t : Fin cfg5.N) :
    (dat5 (F := Ideal) V c).flushed 2 t
      = ((cfg5.win 2).blk t).view.read (Elt Ideal) (Cert.Gcn.biasK (V c main_v77) (V c main_v78)) := by
  show (cfg5.win 2).cut (grid5.coords t) ((dat5 (F := Ideal) V c).after 2 t) = _
  rw [after5_2]
  unfold out5_2
  rw [View.canon_unit_zero zero_offsets]
  simp only [View.ld_unit_zero (S := S2000x128) zero_offsets, View.ld_unit_zero (S := S1x128) zero_offsets]
  obtain ⟨a0, a1, b0, b1, o0, o1⟩ := index_maps5 t
  funext y
  refine (congrFun (body5_eq _ _) y).trans ?_
  exact blockBias_of_shift (V c main_v77) (V c main_v78)
    ((cfg5.win 0).blk t).view.emb ((cfg5.win 2).blk t).view.emb ((cfg5.win 1).blk t).view.emb (2000 * t.val)
    (fun y => by show win5_0.index t (0 : Fin 2) * 2000 + 1 * (y 0).val = _; omega)
    (fun y => by show win5_0.index t (1 : Fin 2) * 128 + 1 * (y 1).val = _; omega)
    (fun y => by show win5_1.index t (1 : Fin 2) * 128 + 1 * (y 1).val = _; omega)
    (fun y => by show win5_2.index t (0 : Fin 2) * 2000 + 1 * (y 0).val = _; omega)
    (fun y => by show win5_2.index t (1 : Fin 2) * 128 + 1 * (y 1).val = _; omega)
    y

/-- An index of the output array is in point `t`'s block iff each coordinate is in the block's range on its axis. -/
theorem mem_block5 (t : Fin cfg5.N) (i : S50000x128.Idx) :
    i ∈ ((cfg5.win 2).blk t).view.set ↔ ∀ a : Fin 2, win5_2.index t a * S2000x128.size a ≤ (i a).val
      ∧ (i a).val < win5_2.index t a * S2000x128.size a + S2000x128.size a := by
  show i ∈ ((View.whole main_v79).slice (win5_2.rect t)).set ↔ _
  rw [View.set_slice_whole, Rect.mem_set_unit]
  exact Iff.rfl

/-- Row `r` of the output array is in the block of point `r / 2000`, and every point writes back. -/
theorem covered5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨-, -, -, -, o0, o1⟩ := index_maps5 ⟨(i 0).val / 2000, ht⟩
  refine ⟨⟨(i 0).val / 2000, ht⟩, flush5_2 _, ?_⟩
  rw [mem_block5]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win5_2.index ⟨(i 0).val / 2000, ht⟩ (1 : Fin 2) * 128 ≤ (i 1).val
      ∧ (i 1).val < win5_2.index ⟨(i 0).val / 2000, ht⟩ (1 : Fin 2) * 128 + 128
    rw [o1]
    omega

end Region5

end Comb

variable (V : (c : Dev nD) → (b : Ref sig .tc) → Buf (Elt Ideal) ((c : Thread nD τ).loc b))

/-- Region 1: the first layer's combine. -/
theorem comb1 (c : Dev nD) :
    (dat1 (F := Ideal) V c).arrAt 3 cfg1.N = Cert.Gcn.combK (V c main_v44) (V c main_arg0) (V c main_arg3) := by
  exact (dat1 (F := Ideal) V c).arrAt_eq_of_cover 3 _ (fun t _ => Comb.written1 V c t) Comb.covered1

/-- Region 3: the second layer's combine. -/
theorem comb3 (c : Dev nD) :
    (dat3 (F := Ideal) V c).arrAt 3 cfg3.N = Cert.Gcn.combK (V c main_v60) (V c main_v45) (V c main_arg5) := by
  exact (dat3 (F := Ideal) V c).arrAt_eq_of_cover 3 _ (fun t _ => Comb.written3 V c t) Comb.covered3

/-- Region 5: the bias. -/
theorem bias5 (c : Dev nD) :
    (dat5 (F := Ideal) V c).arrAt 2 cfg5.N = Cert.Gcn.biasK (V c main_v77) (V c main_v78) := by
  exact (dat5 (F := Ideal) V c).arrAt_eq_of_cover 2 _ (fun t _ => Comb.written5 V c t) Comb.covered5

end Cert.KernelIdeal.Regions

end
-- ==== Proof.Regions.lean ====
/-
  What each of the six kernel regions leaves in its output array, as a whole-array function of the arrays it finds:
  the three projections, the two combines and the bias.
-/
import proofs.«127493_j38714835206720_2_alg».proof.Proof.RegionsLin
import proofs.«127493_j38714835206720_2_alg».proof.Proof.RegionsComb
-- ==== Proof.ChainHead.lean ====
/-
  The kernel's buffers at the boundary after its third region, as functions of the arguments.  The first host stretch
  builds the source and destination words and the edge weights; region 0 projects the features; the second stretch
  aggregates; region 1 combines with the residual product; region 2 projects again.  A buffer a segment does not write is
  carried through it unchanged.
-/
import proofs.«127493_j38714835206720_2_alg».proof.Proof.Regions

set_option maxRecDepth 16384

noncomputable section

namespace Cert.KernelIdeal.Chain

open Idealize.ShloMosaic Idealize.ShloMosaic.TcCoe Idealize.SL.Sem Cert.KernelIdeal Cert.KernelIdeal.Gen Cert.Gcn

variable (m : (ℓ : Loc nD τ sig) → Buf (Elt Ideal) ℓ) (ρ : Dev nD → PrngReg) (c : Dev nD)

namespace Head

/-! ### After the first host stretch

The stretch writes the source words, the destination words and the edge weights as functions of the edge list alone,
each by the same chain of operations as the specification's `rowW`, `colW` and `nrmK`; it writes no argument. -/

theorem w1_v3 : W1 m ρ c (Proc.devRef .tc main_v3) = rowW (m ((c : Thread nD τ).loc main_arg1)) := by
  show StableHlo.after hostOps0 (W0 m ρ c) (Proc.devRef .tc main_v3) = _
  after_results_simp
  rfl

theorem w1_v6 : W1 m ρ c (Proc.devRef .tc main_v6) = colW (m ((c : Thread nD τ).loc main_arg1)) := by
  show StableHlo.after hostOps0 (W0 m ρ c) (Proc.devRef .tc main_v6) = _
  after_results_simp
  rfl

theorem w1_v29 : W1 m ρ c (Proc.devRef .tc main_v29) = nrmK (m ((c : Thread nD τ).loc main_arg1)) := by
  show StableHlo.after hostOps0 (W0 m ρ c) (Proc.devRef .tc main_v29) = _
  after_results_simp
  rfl

theorem w1_arg0 : W1 m ρ c (Proc.devRef .tc main_arg0) = m ((c : Thread nD τ).loc main_arg0) := by
  show StableHlo.after hostOps0 (W0 m ρ c) (Proc.devRef .tc main_arg0) = _
  after_results_simp

theorem w1_arg2 : W1 m ρ c (Proc.devRef .tc main_arg2) = m ((c : Thread nD τ).loc main_arg2) := by
  show StableHlo.after hostOps0 (W0 m ρ c) (Proc.devRef .tc main_arg2) = _
  after_results_simp

theorem w1_arg3 : W1 m ρ c (Proc.devRef .tc main_arg3) = m ((c : Thread nD τ).loc main_arg3) := by
  show StableHlo.after hostOps0 (W0 m ρ c) (Proc.devRef .tc main_arg3) = _
  after_results_simp

theorem w1_arg4 : W1 m ρ c (Proc.devRef .tc main_arg4) = m ((c : Thread nD τ).loc main_arg4) := by
  show StableHlo.after hostOps0 (W0 m ρ c) (Proc.devRef .tc main_arg4) = _
  after_results_simp

theorem w1_arg5 : W1 m ρ c (Proc.devRef .tc main_arg5) = m ((c : Thread nD τ).loc main_arg5) := by
  show StableHlo.after hostOps0 (W0 m ρ c) (Proc.devRef .tc main_arg5) = _
  after_results_simp

theorem w1_arg6 : W1 m ρ c (Proc.devRef .tc main_arg6) = m ((c : Thread nD τ).loc main_arg6) := by
  show StableHlo.after hostOps0 (W0 m ρ c) (Proc.devRef .tc main_arg6) = _
  after_results_simp

theorem w1_arg7 : W1 m ρ c (Proc.devRef .tc main_arg7) = m ((c : Thread nD τ).loc main_arg7) := by
  show StableHlo.after hostOps0 (W0 m ρ c) (Proc.devRef .tc main_arg7) = _
  after_results_simp

theorem w1_arg8 : W1 m ρ c (Proc.devRef .tc main_arg8) = m ((c : Thread nD τ).loc main_arg8) := by
  show StableHlo.after hostOps0 (W0 m ρ c) (Proc.devRef .tc main_arg8) = _
  after_results_simp

/-! ### After region 0

The region leaves the product of the features with the first weight matrix in its output array; the features are one
of its input arrays and leave as they entered; every buffer outside its arrays is untouched. -/

theorem w2_v30 : W2 m ρ c (Proc.devRef .tc main_v30)
    = linK (m ((c : Thread nD τ).loc main_arg0)) (m ((c : Thread nD τ).loc main_arg2)) := by
  refine (W2_arr m ρ c 2).trans ?_
  refine (Cert.KernelIdeal.Regions.lin0 (V1 m ρ) c).trans ?_
  show linK (W1 m ρ c (Proc.devRef .tc main_arg0)) (W1 m ρ c (Proc.devRef .tc main_arg2)) = _
  rw [w1_arg0, w1_arg2]

theorem w2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (w1_arg0 m ρ c)

theorem w2_v3 : W2 m ρ c (Proc.devRef .tc main_v3) = rowW (m ((c : Thread nD τ).loc main_arg1)) :=
  (W2_of_ne m ρ c main_v3 (by decide)).trans (w1_v3 m ρ c)

theorem w2_v6 : W2 m ρ c (Proc.devRef .tc main_v6) = colW (m ((c : Thread nD τ).loc main_arg1)) :=
  (W2_of_ne m ρ c main_v6 (by decide)).trans (w1_v6 m ρ c)

theorem w2_v29 : W2 m ρ c (Proc.devRef .tc main_v29) = nrmK (m ((c : Thread nD τ).loc main_arg1)) :=
  (W2_of_ne m ρ c main_v29 (by decide)).trans (w1_v29 m ρ c)

theorem w2_arg3 : W2 m ρ c (Proc.devRef .tc main_arg3) = m ((c : Thread nD τ).loc main_arg3) :=
  (W2_of_ne m ρ c main_arg3 (by decide)).trans (w1_arg3 m ρ c)

theorem w2_arg4 : W2 m ρ c (Proc.devRef .tc main_arg4) = m ((c : Thread nD τ).loc main_arg4) :=
  (W2_of_ne m ρ c main_arg4 (by decide)).trans (w1_arg4 m ρ c)

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

theorem w2_arg8 : W2 m ρ c (Proc.devRef .tc main_arg8) = m ((c : Thread nD τ).loc main_arg8) :=
  (W2_of_ne m ρ c main_arg8 (by decide)).trans (w1_arg8 m ρ c)

/-! ### After the second host stretch

The stretch gathers the rows of the projected features at the wrapped source words, scales them by the edge weights
and adds them into the rows the destination words name: one aggregation step.  The widening of the gathered rows is the
identity over the extended reals.  It writes neither the words, nor the weights, nor an argument. -/

theorem w3_v44 : W3 m ρ c (Proc.devRef .tc main_v44)
    = agg (rowW (m ((c : Thread nD τ).loc main_arg1))) (colW (m ((c : Thread nD τ).loc main_arg1))) (nrmK (m ((c : Thread nD τ).loc main_arg1))) (linK (m ((c : Thread nD τ).loc main_arg0)) (m ((c : Thread nD τ).loc main_arg2))) := by
  show StableHlo.after hostOps1 (W2 m ρ c) (Proc.devRef .tc main_v44) = _
  after_results_simp
  rw [w2_v3, w2_v6, w2_v29, w2_v30]
  rfl

theorem w3_v3 : W3 m ρ c (Proc.devRef .tc main_v3) = rowW (m ((c : Thread nD τ).loc main_arg1)) := by
  refine Eq.trans ?_ (w2_v3 m ρ c)
  show StableHlo.after hostOps1 (W2 m ρ c) (Proc.devRef .tc main_v3) = _
  after_results_simp

theorem w3_v6 : W3 m ρ c (Proc.devRef .tc main_v6) = colW (m ((c : Thread nD τ).loc main_arg1)) := by
  refine Eq.trans ?_ (w2_v6 m ρ c)
  show StableHlo.after hostOps1 (W2 m ρ c) (Proc.devRef .tc main_v6) = _
  after_results_simp

theorem w3_v29 : W3 m ρ c (Proc.devRef .tc main_v29) = nrmK (m ((c : Thread nD τ).loc main_arg1)) := by
  refine Eq.trans ?_ (w2_v29 m ρ c)
  show StableHlo.after hostOps1 (W2 m ρ c) (Proc.devRef .tc main_v29) = _
  after_results_simp

theorem w3_arg0 : W3 m ρ c (Proc.devRef .tc main_arg0) = m ((c : Thread nD τ).loc main_arg0) := by
  refine Eq.trans ?_ (w2_arg0 m ρ c)
  show StableHlo.after hostOps1 (W2 m ρ c) (Proc.devRef .tc main_arg0) = _
  after_results_simp

theorem w3_arg3 : W3 m ρ c (Proc.devRef .tc main_arg3) = m ((c : Thread nD τ).loc main_arg3) := by
  refine Eq.trans ?_ (w2_arg3 m ρ c)
  show StableHlo.after hostOps1 (W2 m ρ c) (Proc.devRef .tc main_arg3) = _
  after_results_simp

theorem w3_arg4 : W3 m ρ c (Proc.devRef .tc main_arg4) = m ((c : Thread nD τ).loc main_arg4) := by
  refine Eq.trans ?_ (w2_arg4 m ρ c)
  show StableHlo.after hostOps1 (W2 m ρ c) (Proc.devRef .tc main_arg4) = _
  after_results_simp

theorem w3_arg5 : W3 m ρ c (Proc.devRef .tc main_arg5) = m ((c : Thread nD τ).loc main_arg5) := by
  refine Eq.trans ?_ (w2_arg5 m ρ c)
  show StableHlo.after hostOps1 (W2 m ρ c) (Proc.devRef .tc main_arg5) = _
  after_results_simp

theorem w3_arg6 : W3 m ρ c (Proc.devRef .tc main_arg6) = m ((c : Thread nD τ).loc main_arg6) := by
  refine Eq.trans ?_ (w2_arg6 m ρ c)
  show StableHlo.after hostOps1 (W2 m ρ c) (Proc.devRef .tc main_arg6) = _
  after_results_simp

theorem w3_arg7 : W3 m ρ c (Proc.devRef .tc main_arg7) = m ((c : Thread nD τ).loc main_arg7) := by
  refine Eq.trans ?_ (w2_arg7 m ρ c)
  show StableHlo.after hostOps1 (W2 m ρ c) (Proc.devRef .tc main_arg7) = _
  after_results_simp

theorem w3_arg8 : W3 m ρ c (Proc.devRef .tc main_arg8) = m ((c : Thread nD τ).loc main_arg8) := by
  refine Eq.trans ?_ (w2_arg8 m ρ c)
  show StableHlo.after hostOps1 (W2 m ρ c) (Proc.devRef .tc main_arg8) = _
  after_results_simp

/-! ### After region 1

The region leaves the maximum with zero of the aggregate plus the residual product: the first layer. -/

theorem w4_v45 : W4 m ρ c (Proc.devRef .tc main_v45) = x1K (m ((c : Thread nD τ).loc main_arg0)) (m ((c : Thread nD τ).loc main_arg1)) (m ((c : Thread nD τ).loc main_arg2)) (m ((c : Thread nD τ).loc main_arg3)) := by
  refine (W4_arr m ρ c 3).trans ?_
  refine (Cert.KernelIdeal.Regions.comb1 (V3 m ρ) c).trans ?_
  show combK (W3 m ρ c (Proc.devRef .tc main_v44)) (W3 m ρ c (Proc.devRef .tc main_arg0))
      (W3 m ρ c (Proc.devRef .tc main_arg3)) = _
  rw [w3_v44, w3_arg0, w3_arg3]
  rfl

theorem w4_v3 : W4 m ρ c (Proc.devRef .tc main_v3) = rowW (m ((c : Thread nD τ).loc main_arg1)) :=
  (W4_of_ne m ρ c main_v3 (by decide)).trans (w3_v3 m ρ c)

theorem w4_v6 : W4 m ρ c (Proc.devRef .tc main_v6) = colW (m ((c : Thread nD τ).loc main_arg1)) :=
  (W4_of_ne m ρ c main_v6 (by decide)).trans (w3_v6 m ρ c)

theorem w4_v29 : W4 m ρ c (Proc.devRef .tc main_v29) = nrmK (m ((c : Thread nD τ).loc main_arg1)) :=
  (W4_of_ne m ρ c main_v29 (by decide)).trans (w3_v29 m ρ c)

theorem w4_arg4 : W4 m ρ c (Proc.devRef .tc main_arg4) = m ((c : Thread nD τ).loc main_arg4) :=
  (W4_of_ne m ρ c main_arg4 (by decide)).trans (w3_arg4 m ρ c)

theorem w4_arg5 : W4 m ρ c (Proc.devRef .tc main_arg5) = m ((c : Thread nD τ).loc main_arg5) :=
  (W4_of_ne m ρ c main_arg5 (by decide)).trans (w3_arg5 m ρ c)

theorem w4_arg6 : W4 m ρ c (Proc.devRef .tc main_arg6) = m ((c : Thread nD τ).loc main_arg6) :=
  (W4_of_ne m ρ c main_arg6 (by decide)).trans (w3_arg6 m ρ c)

theorem w4_arg7 : W4 m ρ c (Proc.devRef .tc main_arg7) = m ((c : Thread nD τ).loc main_arg7) :=
  (W4_of_ne m ρ c main_arg7 (by decide)).trans (w3_arg7 m ρ c)

theorem w4_arg8 : W4 m ρ c (Proc.devRef .tc main_arg8) = m ((c : Thread nD τ).loc main_arg8) :=
  (W4_of_ne m ρ c main_arg8 (by decide)).trans (w3_arg8 m ρ c)

/-! ### After region 2

The region leaves the product of the first layer with the next weight matrix; the first layer itself is its streamed
input array and leaves as it entered. -/

theorem w5_v46 : W5 m ρ c (Proc.devRef .tc main_v46) = linK (x1K (m ((c : Thread nD τ).loc main_arg0)) (m ((c : Thread nD τ).loc main_arg1)) (m ((c : Thread nD τ).loc main_arg2)) (m ((c : Thread nD τ).loc main_arg3))) (m ((c : Thread nD τ).loc main_arg4)) := by
  refine (W5_arr m ρ c 2).trans ?_
  refine (Cert.KernelIdeal.Regions.lin2 (V4 m ρ) c).trans ?_
  show linK (W4 m ρ c (Proc.devRef .tc main_v45)) (W4 m ρ c (Proc.devRef .tc main_arg4)) = _
  rw [w4_v45, w4_arg4]

theorem w5_v45 : W5 m ρ c (Proc.devRef .tc main_v45) = x1K (m ((c : Thread nD τ).loc main_arg0)) (m ((c : Thread nD τ).loc main_arg1)) (m ((c : Thread nD τ).loc main_arg2)) (m ((c : Thread nD τ).loc main_arg3)) :=
  ((W5_arr m ρ c 0).trans (((dat2 (V4 m ρ) c).arrAt_in 0 rfl _).trans (A_eq2 (V4 m ρ) c 0))).trans (w4_v45 m ρ c)

theorem w5_v3 : W5 m ρ c (Proc.devRef .tc main_v3) = rowW (m ((c : Thread nD τ).loc main_arg1)) :=
  (W5_of_ne m ρ c main_v3 (by decide)).trans (w4_v3 m ρ c)

theorem w5_v6 : W5 m ρ c (Proc.devRef .tc main_v6) = colW (m ((c : Thread nD τ).loc main_arg1)) :=
  (W5_of_ne m ρ c main_v6 (by decide)).trans (w4_v6 m ρ c)

theorem w5_v29 : W5 m ρ c (Proc.devRef .tc main_v29) = nrmK (m ((c : Thread nD τ).loc main_arg1)) :=
  (W5_of_ne m ρ c main_v29 (by decide)).trans (w4_v29 m ρ c)

theorem w5_arg5 : W5 m ρ c (Proc.devRef .tc main_arg5) = m ((c : Thread nD τ).loc main_arg5) :=
  (W5_of_ne m ρ c main_arg5 (by decide)).trans (w4_arg5 m ρ c)

theorem w5_arg6 : W5 m ρ c (Proc.devRef .tc main_arg6) = m ((c : Thread nD τ).loc main_arg6) :=
  (W5_of_ne m ρ c main_arg6 (by decide)).trans (w4_arg6 m ρ c)

theorem w5_arg7 : W5 m ρ c (Proc.devRef .tc main_arg7) = m ((c : Thread nD τ).loc main_arg7) :=
  (W5_of_ne m ρ c main_arg7 (by decide)).trans (w4_arg7 m ρ c)

theorem w5_arg8 : W5 m ρ c (Proc.devRef .tc main_arg8) = m ((c : Thread nD τ).loc main_arg8) :=
  (W5_of_ne m ρ c main_arg8 (by decide)).trans (w4_arg8 m ρ c)

end Head

/-- The contents, after region 2, of every buffer the rest of the program reads. -/
theorem head :
    W5 m ρ c (Proc.devRef .tc main_v45)
        = x1K (m ((c : Thread nD τ).loc main_arg0)) (m ((c : Thread nD τ).loc main_arg1))
            (m ((c : Thread nD τ).loc main_arg2)) (m ((c : Thread nD τ).loc main_arg3))
    ∧ W5 m ρ c (Proc.devRef .tc main_v46)
        = linK (x1K (m ((c : Thread nD τ).loc main_arg0)) (m ((c : Thread nD τ).loc main_arg1))
            (m ((c : Thread nD τ).loc main_arg2)) (m ((c : Thread nD τ).loc main_arg3))) (m ((c : Thread nD τ).loc main_arg4))
    ∧ W5 m ρ c (Proc.devRef .tc main_v3) = rowW (m ((c : Thread nD τ).loc main_arg1))
    ∧ W5 m ρ c (Proc.devRef .tc main_v6) = colW (m ((c : Thread nD τ).loc main_arg1))
    ∧ W5 m ρ c (Proc.devRef .tc main_v29) = nrmK (m ((c : Thread nD τ).loc main_arg1))
    ∧ W5 m ρ c (Proc.devRef .tc main_arg5) = m ((c : Thread nD τ).loc main_arg5)
    ∧ W5 m ρ c (Proc.devRef .tc main_arg6) = m ((c : Thread nD τ).loc main_arg6)
    ∧ W5 m ρ c (Proc.devRef .tc main_arg7) = m ((c : Thread nD τ).loc main_arg7)
    ∧ W5 m ρ c (Proc.devRef .tc main_arg8) = m ((c : Thread nD τ).loc main_arg8) := by
  exact ⟨Head.w5_v45 m ρ c, Head.w5_v46 m ρ c, Head.w5_v3 m ρ c, Head.w5_v6 m ρ c, Head.w5_v29 m ρ c,
    Head.w5_arg5 m ρ c, Head.w5_arg6 m ρ c, Head.w5_arg7 m ρ c, Head.w5_arg8 m ρ c⟩

end Cert.KernelIdeal.Chain

end
-- ==== Proof.ChainTail.lean ====
/-
  From the boundary after region 2 to the result.  Whatever that boundary holds in the buffers read later — the first
  layer's output, its projection, the source and destination words, the edge weights, the last four arguments — the
  third host stretch aggregates, region 3 combines, the fourth stretch multiplies the last two weight matrices, region 4
  projects by their product, the fifth stretch aggregates and lays the bias out as a row, and region 5 adds it.
-/
import proofs.«127493_j38714835206720_2_alg».proof.Proof.Regions

set_option maxRecDepth 16384

noncomputable section

namespace Cert.KernelIdeal.Chain.Tail

open Idealize.ShloMosaic Idealize.ShloMosaic.TcCoe Idealize.SL.Sem Cert.KernelIdeal Cert.KernelIdeal.Gen Cert.Gcn

variable (m : (ℓ : Loc nD τ sig) → Buf (Elt Ideal) ℓ) (ρ : Dev nD → PrngReg) (c : Dev nD)

/-! ### The third host stretch: from region 2's exit to region 3's entry

It writes only its own intermediate buffers and the aggregated array; every buffer read later keeps its contents. -/

theorem w6_v45 : W6 m ρ c (Proc.devRef .tc main_v45) = W5 m ρ c (Proc.devRef .tc main_v45) := by
  show StableHlo.after hostOps3 (W5 m ρ c) (Proc.devRef .tc main_v45) = _
  after_results_simp

theorem w6_v3 : W6 m ρ c (Proc.devRef .tc main_v3) = W5 m ρ c (Proc.devRef .tc main_v3) := by
  show StableHlo.after hostOps3 (W5 m ρ c) (Proc.devRef .tc main_v3) = _
  after_results_simp

theorem w6_v6 : W6 m ρ c (Proc.devRef .tc main_v6) = W5 m ρ c (Proc.devRef .tc main_v6) := by
  show StableHlo.after hostOps3 (W5 m ρ c) (Proc.devRef .tc main_v6) = _
  after_results_simp

theorem w6_v29 : W6 m ρ c (Proc.devRef .tc main_v29) = W5 m ρ c (Proc.devRef .tc main_v29) := by
  show StableHlo.after hostOps3 (W5 m ρ c) (Proc.devRef .tc main_v29) = _
  after_results_simp

theorem w6_arg5 : W6 m ρ c (Proc.devRef .tc main_arg5) = W5 m ρ c (Proc.devRef .tc main_arg5) := by
  show StableHlo.after hostOps3 (W5 m ρ c) (Proc.devRef .tc main_arg5) = _
  after_results_simp

theorem w6_arg6 : W6 m ρ c (Proc.devRef .tc main_arg6) = W5 m ρ c (Proc.devRef .tc main_arg6) := by
  show StableHlo.after hostOps3 (W5 m ρ c) (Proc.devRef .tc main_arg6) = _
  after_results_simp

theorem w6_arg7 : W6 m ρ c (Proc.devRef .tc main_arg7) = W5 m ρ c (Proc.devRef .tc main_arg7) := by
  show StableHlo.after hostOps3 (W5 m ρ c) (Proc.devRef .tc main_arg7) = _
  after_results_simp

theorem w6_arg8 : W6 m ρ c (Proc.devRef .tc main_arg8) = W5 m ρ c (Proc.devRef .tc main_arg8) := by
  show StableHlo.after hostOps3 (W5 m ρ c) (Proc.devRef .tc main_arg8) = _
  after_results_simp

/-- The stretch wraps the source words, looks up the rows of the projection at them, scales each by its edge's weight
    and adds it into the row its destination word names: one aggregation step of the projection. -/
theorem w6_v60 (l2 : Feat) (row col : EdgeW) (nrm : EdgeR)
    (h46 : W5 m ρ c (Proc.devRef .tc main_v46) = l2) (h3 : W5 m ρ c (Proc.devRef .tc main_v3) = row)
    (h6 : W5 m ρ c (Proc.devRef .tc main_v6) = col) (h29 : W5 m ρ c (Proc.devRef .tc main_v29) = nrm) :
    W6 m ρ c (Proc.devRef .tc main_v60) = agg row col nrm l2 := by
  show StableHlo.after hostOps3 (W5 m ρ c) (Proc.devRef .tc main_v60) = _
  after_results_simp
  rw [h46, h3, h6, h29]
  rfl

/-! ### Region 3: the second layer's combine -/

theorem w7_v3 : W7 m ρ c (Proc.devRef .tc main_v3) = W6 m ρ c (Proc.devRef .tc main_v3) :=
  W7_of_ne m ρ c main_v3 (by decide)

theorem w7_v6 : W7 m ρ c (Proc.devRef .tc main_v6) = W6 m ρ c (Proc.devRef .tc main_v6) :=
  W7_of_ne m ρ c main_v6 (by decide)

theorem w7_v29 : W7 m ρ c (Proc.devRef .tc main_v29) = W6 m ρ c (Proc.devRef .tc main_v29) :=
  W7_of_ne m ρ c main_v29 (by decide)

theorem w7_arg6 : W7 m ρ c (Proc.devRef .tc main_arg6) = W6 m ρ c (Proc.devRef .tc main_arg6) :=
  W7_of_ne m ρ c main_arg6 (by decide)

theorem w7_arg7 : W7 m ρ c (Proc.devRef .tc main_arg7) = W6 m ρ c (Proc.devRef .tc main_arg7) :=
  W7_of_ne m ρ c main_arg7 (by decide)

theorem w7_arg8 : W7 m ρ c (Proc.devRef .tc main_arg8) = W6 m ρ c (Proc.devRef .tc main_arg8) :=
  W7_of_ne m ρ c main_arg8 (by decide)

theorem w7_v61 (a x1 : Feat) (a5 : Wt)
    (h60 : W6 m ρ c (Proc.devRef .tc main_v60) = a) (h45 : W6 m ρ c (Proc.devRef .tc main_v45) = x1)
    (h5 : W6 m ρ c (Proc.devRef .tc main_arg5) = a5) :
    W7 m ρ c (Proc.devRef .tc main_v61) = combK a x1 a5 := by
  refine (W7_arr m ρ c 3).trans ?_
  refine (Cert.KernelIdeal.Regions.comb3 (V6 m ρ) c).trans ?_
  show combK (W6 m ρ c (Proc.devRef .tc main_v60)) (W6 m ρ c (Proc.devRef .tc main_v45))
    (W6 m ρ c (Proc.devRef .tc main_arg5)) = _
  rw [h60, h45, h5]

/-! ### The fourth host stretch: the product of the last two weight matrices -/

theorem w8_v61 : W8 m ρ c (Proc.devRef .tc main_v61) = W7 m ρ c (Proc.devRef .tc main_v61) := by
  show StableHlo.after hostOps4 (W7 m ρ c) (Proc.devRef .tc main_v61) = _
  after_results_simp

theorem w8_v3 : W8 m ρ c (Proc.devRef .tc main_v3) = W7 m ρ c (Proc.devRef .tc main_v3) := by
  show StableHlo.after hostOps4 (W7 m ρ c) (Proc.devRef .tc main_v3) = _
  after_results_simp

theorem w8_v6 : W8 m ρ c (Proc.devRef .tc main_v6) = W7 m ρ c (Proc.devRef .tc main_v6) := by
  show StableHlo.after hostOps4 (W7 m ρ c) (Proc.devRef .tc main_v6) = _
  after_results_simp

theorem w8_v29 : W8 m ρ c (Proc.devRef .tc main_v29) = W7 m ρ c (Proc.devRef .tc main_v29) := by
  show StableHlo.after hostOps4 (W7 m ρ c) (Proc.devRef .tc main_v29) = _
  after_results_simp

theorem w8_arg8 : W8 m ρ c (Proc.devRef .tc main_arg8) = W7 m ρ c (Proc.devRef .tc main_arg8) := by
  show StableHlo.after hostOps4 (W7 m ρ c) (Proc.devRef .tc main_arg8) = _
  after_results_simp

theorem w8_v62 (a6 a7 : Wt)
    (h6 : W7 m ρ c (Proc.devRef .tc main_arg6) = a6) (h7 : W7 m ρ c (Proc.devRef .tc main_arg7) = a7) :
    W8 m ρ c (Proc.devRef .tc main_v62) = dotW a6 a7 := by
  show StableHlo.after hostOps4 (W7 m ρ c) (Proc.devRef .tc main_v62) = _
  after_results_simp
  rw [h6, h7]
  rfl

/-! ### Region 4: the projection by the folded weight matrix -/

theorem w9_v3 : W9 m ρ c (Proc.devRef .tc main_v3) = W8 m ρ c (Proc.devRef .tc main_v3) :=
  W9_of_ne m ρ c main_v3 (by decide)

theorem w9_v6 : W9 m ρ c (Proc.devRef .tc main_v6) = W8 m ρ c (Proc.devRef .tc main_v6) :=
  W9_of_ne m ρ c main_v6 (by decide)

theorem w9_v29 : W9 m ρ c (Proc.devRef .tc main_v29) = W8 m ρ c (Proc.devRef .tc main_v29) :=
  W9_of_ne m ρ c main_v29 (by decide)

theorem w9_arg8 : W9 m ρ c (Proc.devRef .tc main_arg8) = W8 m ρ c (Proc.devRef .tc main_arg8) :=
  W9_of_ne m ρ c main_arg8 (by decide)

theorem w9_v63 (x : Feat) (w : Wt)
    (h61 : W8 m ρ c (Proc.devRef .tc main_v61) = x) (h62 : W8 m ρ c (Proc.devRef .tc main_v62) = w) :
    W9 m ρ c (Proc.devRef .tc main_v63) = linK x w := by
  refine (W9_arr m ρ c 2).trans ?_
  refine (Cert.KernelIdeal.Regions.lin4 (V8 m ρ) c).trans ?_
  show linK (W8 m ρ c (Proc.devRef .tc main_v61)) (W8 m ρ c (Proc.devRef .tc main_v62)) = _
  rw [h61, h62]

/-! ### The fifth host stretch: the last aggregation, and the bias laid out as one row -/

theorem w10_v77 (h : Feat) (row col : EdgeW) (nrm : EdgeR)
    (h63 : W9 m ρ c (Proc.devRef .tc main_v63) = h) (h3 : W9 m ρ c (Proc.devRef .tc main_v3) = row)
    (h6 : W9 m ρ c (Proc.devRef .tc main_v6) = col) (h29 : W9 m ρ c (Proc.devRef .tc main_v29) = nrm) :
    W10 m ρ c (Proc.devRef .tc main_v77) = agg row col nrm h := by
  show StableHlo.after hostOps5 (W9 m ρ c) (Proc.devRef .tc main_v77) = _
  after_results_simp
  rw [h63, h3, h6, h29]
  rfl

theorem w10_v78 (a8 : Bias) (h8 : W9 m ρ c (Proc.devRef .tc main_arg8) = a8) :
    W10 m ρ c (Proc.devRef .tc main_v78) = biasRow a8 := by
  show StableHlo.after hostOps5 (W9 m ρ c) (Proc.devRef .tc main_v78) = _
  after_results_simp
  rw [h8]
  rfl

/-! ### Region 5: the bias -/

theorem w11_v79 (a : Feat) (b : Row)
    (h77 : W10 m ρ c (Proc.devRef .tc main_v77) = a) (h78 : W10 m ρ c (Proc.devRef .tc main_v78) = b) :
    W11 m ρ c (Proc.devRef .tc main_v79) = biasK a b := by
  refine (W11_arr m ρ c 2).trans ?_
  refine (Cert.KernelIdeal.Regions.bias5 (V10 m ρ) c).trans ?_
  show biasK (W10 m ρ c (Proc.devRef .tc main_v77)) (W10 m ρ c (Proc.devRef .tc main_v78)) = _
  rw [h77, h78]

end Cert.KernelIdeal.Chain.Tail

namespace Cert.KernelIdeal.Chain

open Idealize.ShloMosaic Idealize.ShloMosaic.TcCoe Idealize.SL.Sem Cert.KernelIdeal Cert.KernelIdeal.Gen Cert.Gcn

variable (m : (ℓ : Loc nD τ sig) → Buf (Elt Ideal) ℓ) (ρ : Dev nD → PrngReg) (c : Dev nD)

/-- The result buffer, from the contents of the boundary after region 2. -/
theorem tail (x1 l2 : Feat) (row col : EdgeW) (nrm : EdgeR) (a5 a6 a7 : Wt) (a8 : Bias)
    (h45 : W5 m ρ c (Proc.devRef .tc main_v45) = x1) (h46 : W5 m ρ c (Proc.devRef .tc main_v46) = l2)
    (h3 : W5 m ρ c (Proc.devRef .tc main_v3) = row) (h6 : W5 m ρ c (Proc.devRef .tc main_v6) = col)
    (h29 : W5 m ρ c (Proc.devRef .tc main_v29) = nrm)
    (h5 : W5 m ρ c (Proc.devRef .tc main_arg5) = a5) (h6' : W5 m ρ c (Proc.devRef .tc main_arg6) = a6)
    (h7 : W5 m ρ c (Proc.devRef .tc main_arg7) = a7) (h8 : W5 m ρ c (Proc.devRef .tc main_arg8) = a8) :
    W11 m ρ c (Proc.devRef .tc main_v79)
      = biasK (agg row col nrm (linK (combK (agg row col nrm l2) x1 a5) (dotW a6 a7))) (biasRow a8) := by
  -- region 3's entry
  have e6_60 := Tail.w6_v60 m ρ c l2 row col nrm h46 h3 h6 h29
  have e6_45 := (Tail.w6_v45 m ρ c).trans h45
  have e6_5 := (Tail.w6_arg5 m ρ c).trans h5
  -- region 3's exit
  have e7_61 := Tail.w7_v61 m ρ c _ x1 a5 e6_60 e6_45 e6_5
  have e7_6 := ((Tail.w7_arg6 m ρ c).trans (Tail.w6_arg6 m ρ c)).trans h6'
  have e7_7 := ((Tail.w7_arg7 m ρ c).trans (Tail.w6_arg7 m ρ c)).trans h7
  -- region 4's entry
  have e8_62 := Tail.w8_v62 m ρ c a6 a7 e7_6 e7_7
  have e8_61 := (Tail.w8_v61 m ρ c).trans e7_61
  -- region 4's exit; the words, the weights and the bias have come through unchanged
  have e9_63 := Tail.w9_v63 m ρ c _ _ e8_61 e8_62
  have e9_3 := ((((Tail.w9_v3 m ρ c).trans (Tail.w8_v3 m ρ c)).trans (Tail.w7_v3 m ρ c)).trans (Tail.w6_v3 m ρ c)).trans h3
  have e9_6 := ((((Tail.w9_v6 m ρ c).trans (Tail.w8_v6 m ρ c)).trans (Tail.w7_v6 m ρ c)).trans (Tail.w6_v6 m ρ c)).trans h6
  have e9_29 := ((((Tail.w9_v29 m ρ c).trans (Tail.w8_v29 m ρ c)).trans (Tail.w7_v29 m ρ c)).trans (Tail.w6_v29 m ρ c)).trans h29
  have e9_8 := ((((Tail.w9_arg8 m ρ c).trans (Tail.w8_arg8 m ρ c)).trans (Tail.w7_arg8 m ρ c)).trans (Tail.w6_arg8 m ρ c)).trans h8
  -- region 5's entry and exit
  have e10_77 := Tail.w10_v77 m ρ c _ row col nrm e9_63 e9_3 e9_6 e9_29
  have e10_78 := Tail.w10_v78 m ρ c a8 e9_8
  exact Tail.w11_v79 m ρ c _ _ e10_77 e10_78

end Cert.KernelIdeal.Chain

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.LibVecScatter.lean ====
/-
  General lemmas for one-dimensional host data: a scatter into a vector of `N` entries from a column of `E` index
  words lands update `e` on the entry its word names read signed, and on none when the word is outside `[0, N)`;
  a two-piece concatenation of vectors read in its first and in its second piece; a sum over a vector's indices
  as a sum over `Fin N`, and split at a cut `n₁ + n₂ = N`.
-/
import Idealize.ShloMosaic.Lib.ValueIdx
import Idealize.ShloMosaic.Lib.Pipeline.Value

noncomputable section

open scoped BigOperators

namespace Cert.LibVecScatter

open Idealize.ShloMosaic Idealize.ShloMosaic.ValueIdx

variable {α : Type}

/-! ## A scatter into a vector from a column of index words -/

/-- The dimension numbers of `x.at[idx].add(u)` for a vector `x` of `N` entries and a column of `E` index words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The start of update `j`'s window: its index word, read signed. -/
theorem vecScatter_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatter N E wf).start j idx 0 = (idx (ix2 (j 0) (⟨0, Nat.one_pos⟩ : Fin 1))).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl

/-- The window has one element: its coordinate is zero. -/
theorem vecScatter_window {N E : Nat} (wf : ScatterDims.WF ⟨1, ![N]⟩ ⟨2, ![E, 1]⟩ ⟨1, ![E]⟩ [] [0] [0] 1)
    (j : (⟨1, ![E]⟩ : Shape).Idx) : (vecScatter N E wf).window j 0 = 0 := by
  unfold ScatterDims.window
  rw [dif_neg]
  intro h
  have h2 := (List.mem_filter.mp h).2
  simp at h2

/-- Update `j` lands on entry `c` exactly when its index word, read signed, is `c`. -/
theorem vecScatter_lands {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (c : Fin N) :
    (vecScatter N E wf).resultIdx? j idx = some (ix1 c)
      ↔ (idx (ix2 (j 0) (⟨0, Nat.one_pos⟩ : Fin 1))).toInt = (c.val : Int) := by
  have hsum : ∀ a : Fin 1, (vecScatter N E wf).start j idx a + ((vecScatter N E wf).window j a : Int)
      = (idx (ix2 (j 0) (⟨0, Nat.one_pos⟩ : Fin 1))).toInt := by
    intro a
    obtain rfl : a = 0 := Subsingleton.elim _ _
    rw [vecScatter_start, vecScatter_window]; simp
  unfold ScatterDims.resultIdx?
  constructor
  · intro h
    split at h
    · rename_i hin
      have h1 := congrFun (Option.some.inj h) 0
      have h2 := congrArg Fin.val h1
      have h3 := hin 0
      rw [hsum 0] at h3
      simp only [hsum 0] at h2
      show _ = (c.val : Int)
      have : ((idx (ix2 (j 0) (⟨0, Nat.one_pos⟩ : Fin 1))).toInt.toNat : Int) = (c.val : Int) := by
        exact_mod_cast h2
      omega
    · exact absurd h (by simp)
  · intro h
    have hin : ∀ a : Fin 1, 0 ≤ (vecScatter N E wf).start j idx a + ((vecScatter N E wf).window j a : Int)
        ∧ (vecScatter N E wf).start j idx a + ((vecScatter N E wf).window j a : Int) < ((⟨1, ![N]⟩ : Shape).size a : Int) := by
      intro a
      obtain rfl : a = 0 := Subsingleton.elim _ _
      rw [hsum 0, h]
      have := c.isLt
      refine ⟨by omega, ?_⟩
      show (c.val : Int) < (N : Int)
      omega
    rw [dif_pos hin]
    congr 1
    funext a
    obtain rfl : a = 0 := Subsingleton.elim _ _
    refine Fin.ext ?_
    show ((vecScatter N E wf).start j idx 0 + ((vecScatter N E wf).window j 0 : Int)).toNat = c.val
    rw [hsum 0, h]; simp

/-! ## A two-piece concatenation of vectors -/

/-- Below the cut, the concatenation is its first piece. -/
theorem concat1_left {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₁) (hk : k.val < N) :
    concatenate ⟨1, ![N]⟩ 0 [⟨⟨1, ![n₁]⟩, x₁⟩, ⟨⟨1, ![n₂]⟩, x₂⟩] h (ix1 ⟨k.val, hk⟩) = x₁ (ix1 k) :=
  concatenate_pair_apply_left 0 x₁ x₂ h _ rfl (ix1 k) (fun b => by
    match b with
    | ⟨0, _⟩ => rfl)

/-- From the cut on, the concatenation is its second piece, the cut less. -/
theorem concat1_right {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₂) (hk : n₁ + k.val < N) :
    concatenate ⟨1, ![N]⟩ 0 [⟨⟨1, ![n₁]⟩, x₁⟩, ⟨⟨1, ![n₂]⟩, x₂⟩] h (ix1 ⟨n₁ + k.val, hk⟩) = x₂ (ix1 k) :=
  concatenate_pair_apply_right 0 x₁ x₂ h _ rfl rfl (ix1 k)
    (fun b hb => absurd (Subsingleton.elim _ _) hb)
    (by show k.val + n₁ = n₁ + k.val; omega)

/-! ## Sums over a vector's indices -/

/-- A vector's indices are `Fin N`. -/
def idx1Equiv (N : Nat) : Fin N ≃ (⟨1, ![N]⟩ : Shape).Idx where
  toFun := ix1
  invFun := fun j => j 0
  left_inv := fun _ => rfl
  right_inv := fun j => (eq_ix1 j).symm

theorem sum_idx1 {M : Type*} [AddCommMonoid M] {N : Nat} (f : (⟨1, ![N]⟩ : Shape).Idx → M) :
    ∑ j, f j = ∑ k : Fin N, f (ix1 k) :=
  (Equiv.sum_comp (idx1Equiv N) f).symm

/-- A sum over a vector's indices, split at a cut. -/
theorem sum_idx1_split {M : Type*} [AddCommMonoid M] {n₁ n₂ N : Nat} (hN : n₁ + n₂ = N)
    (f : (⟨1, ![N]⟩ : Shape).Idx → M) :
    ∑ j, f j = (∑ k : Fin n₁, f (ix1 ⟨k.val, by omega⟩)) + ∑ k : Fin n₂, f (ix1 ⟨n₁ + k.val, by omega⟩) := by
  subst hN
  rw [sum_idx1, Fin.sum_univ_add]
  rfl

end Cert.LibVecScatter

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LibSymNorm.lean ====
/-
  Symmetric normalization of a graph with self-loops, two ways.

  For a 0/1 matrix a (one where there is an edge) and real features h, let deg i = Σ_j a i j + 1 and d i = deg i ^ (-1/2).
  Adding the identity to a and multiplying the product matrix (d i · d j) · (a + I) i j into h gives, at (i, q),
      Σ_j ((d i · d j) · (a i j + I i j)) · h j q .
  Keeping the self-loop apart gives
      Σ_j (a i j · d i · d j) · h j q  +  (d i · d i) · h i q .
  The two agree: every quantity is a real number (deg i ≥ 1, so its power -1/2 is the real 1/√deg i, and the guard
  "deg i > 0" always holds), and over the reals the product distributes over a i j + I i j; the identity's column
  picks out the term j = i.
-/
import Idealize.ShloMosaic.PureOps.Ideal
import proofs.«127493_j38714835206720_2_alg».proof.Proof.LibReal

noncomputable section

open scoped BigOperators

namespace Cert.LibSymNorm

open Idealize.ShloMosaic Cert.LibReal

/-- An entry that is zero or one. -/
def Bit (x : EReal) : Prop := x = 0 ∨ x = 1

theorem Bit.isR {x : EReal} (h : Bit x) : ∃ r : ℝ, 0 ≤ r ∧ x = (r : EReal) := by
  rcases h with rfl | rfl
  · exact ⟨0, le_refl _, rfl⟩
  · exact ⟨1, zero_le_one, rfl⟩

/-- A finite sum of zeros and ones is a nonnegative real. -/
theorem sum_bits {ι : Type} (s : Finset ι) (f : ι → EReal) (hf : ∀ i, Bit (f i)) :
    ∃ r : ℝ, 0 ≤ r ∧ ∑ i ∈ s, f i = (r : EReal) := by
  classical
  induction s using Finset.induction_on with
  | empty => exact ⟨0, le_refl _, by simp⟩
  | insert i s hi ih =>
    obtain ⟨r, hr, e⟩ := ih
    obtain ⟨b, hb, eb⟩ := (hf i).isR
    refine ⟨b + r, add_nonneg hb hr, ?_⟩
    rw [Finset.sum_insert hi, e, eb, EReal.coe_add]

/-- The power -1/2 of a positive real is its inverse square root. -/
theorem pow_neg_half {r : ℝ} (hr : 0 < r) :
    Ideal.pow (r : EReal) ((-(1 / 2) : ℝ) : EReal) = Ideal.rsqrt (r : EReal) := by
  rw [Ideal.pow_coe_coe, Ideal.rsqrt_coe, if_neg (not_lt.mpr hr.le), if_neg hr.ne']
  congr 1
  show (r ^ (-(1 / 2) : ℝ) : ℝ) = (Real.sqrt r)⁻¹
  rw [Real.sqrt_eq_rpow, Real.rpow_neg hr.le]

section
variable {ι κ : Type} [Fintype ι] [DecidableEq ι]

/-- The identity matrix's entry. -/
def eyeE (i j : ι) : EReal := if i = j then 1 else 0

/-- The degree with the self-loop counted apart: the row's sum, plus one. -/
def degK (a : ι → ι → EReal) (i : ι) : EReal := (∑ j, a i j) + 1

/-- Its inverse square root. -/
def dK (a : ι → ι → EReal) (i : ι) : EReal := Ideal.rsqrt (degK a i)

/-- The degree of the matrix with the identity added, summed from zero. -/
def degR (a : ι → ι → EReal) (i : ι) : EReal := 0 + ∑ j, (a i j + eyeE i j)

/-- Its guarded power: `mh` is the exponent. -/
def nR (a : ι → ι → EReal) (mh : EReal) (i : ι) : EReal := if 0 < degR a i then Ideal.pow (degR a i) mh else 0

theorem degR_eq (a : ι → ι → EReal) (i : ι) : degR a i = degK a i := by
  unfold degR degK eyeE
  rw [zero_add, Finset.sum_add_distrib, Finset.sum_ite_eq, if_pos (Finset.mem_univ i)]

theorem degK_real (a : ι → ι → EReal) (ha : ∀ i j, Bit (a i j)) (i : ι) : ∃ r : ℝ, 0 < r ∧ degK a i = (r : EReal) := by
  obtain ⟨r, hr, e⟩ := sum_bits Finset.univ (a i) (ha i)
  refine ⟨r + 1, by linarith, ?_⟩
  unfold degK
  rw [e, EReal.coe_add, EReal.coe_one]

theorem dK_real (a : ι → ι → EReal) (ha : ∀ i j, Bit (a i j)) (i : ι) : IsR (dK a i) := by
  obtain ⟨r, hr, e⟩ := degK_real a ha i
  unfold dK
  rw [e]
  exact isR_rsqrt hr

theorem nR_eq (a : ι → ι → EReal) (ha : ∀ i j, Bit (a i j)) (mh : EReal) (hmh : mh = ((-(1 / 2) : ℝ) : EReal)) (i : ι) :
    nR a mh i = dK a i := by
  obtain ⟨r, hr, e⟩ := degK_real a ha i
  unfold nR dK
  rw [degR_eq, e, if_pos (by exact_mod_cast hr), hmh, pow_neg_half hr]

/-- THE LAW: the product with the identity added is the product without it plus the self-loop's term. -/
theorem sym_norm_eq (a : ι → ι → EReal) (ha : ∀ i j, Bit (a i j)) (h : ι → κ → EReal) (hh : ∀ j q, IsR (h j q))
    (mh : EReal) (hmh : mh = ((-(1 / 2) : ℝ) : EReal)) (i : ι) (q : κ) :
    ∑ j, ((nR a mh i * nR a mh j) * (a i j + eyeE i j)) * h j q
      = (∑ j, (a i j * dK a i * dK a j) * h j q) + (dK a i * dK a i) * h i q := by
  have hd : ∀ j, ∃ r : ℝ, dK a j = (r : EReal) := fun j => dK_real a ha j
  choose d hd using hd
  have hα : ∀ j, ∃ r : ℝ, a i j = (r : EReal) := fun j => by obtain ⟨r, _, e⟩ := (ha i j).isR; exact ⟨r, e⟩
  choose α hα using hα
  have hη : ∀ j, ∃ r : ℝ, h j q = (r : EReal) := fun j => hh j q
  choose η hη using hη
  have hterm : ∀ j, ((nR a mh i * nR a mh j) * (a i j + eyeE i j)) * h j q
      = (a i j * dK a i * dK a j) * h j q + (if i = j then (dK a i * dK a i) * h i q else 0) := by
    intro j
    rw [nR_eq a ha mh hmh i, nR_eq a ha mh hmh j, hd i, hd j, hα j, hη j]
    unfold eyeE
    by_cases hij : i = j
    · subst hij
      rw [if_pos rfl, if_pos rfl, hη i]
      exact_mod_cast (by ring : (d i * d i * (α i + 1)) * η i = α i * d i * d i * η i + d i * d i * η i)
    · rw [if_neg hij, if_neg hij, add_zero, add_zero]
      exact_mod_cast (by ring : (d i * d j * α j) * η j = α j * d i * d j * η j)
  rw [Finset.sum_congr rfl (fun j _ => hterm j), Finset.sum_add_distrib, Finset.sum_ite_eq, if_pos (Finset.mem_univ i)]

end

end Cert.LibSymNorm

end
-- ==== Proof.AggRead.lean ====
/-
  The aggregation step and the degree read at an index, and what follows for the edge weights.

  Entry (j, q) of an aggregation is the sum, over the edges whose destination word names node j, of the source node's
  entry in column q times the edge's weight (added to a zero).  The degree of node j is the number of edges whose
  destination word names j; the self-loop of j is one of them, so the degree is a real number at least one, clamping it
  from below by one changes nothing, and its power -1/2 is a positive real.  Hence the kernel's edge weights are the
  reference's, and every edge weight is a real number.
-/
import proofs.«127493_j38714835206720_2_alg».proof.Proof.KSpec
import proofs.«127493_j38714835206720_2_alg».proof.Proof.LibReal
import proofs.«127493_j38714835206720_2_alg».proof.Proof.LibRowScatter
import proofs.«127493_j38714835206720_2_alg».proof.Proof.LibVecScatter
import proofs.«127493_j38714835206720_2_alg».proof.Proof.LibTake
import proofs.«127493_j38714835206720_2_alg».proof.Proof.LibSymNorm

noncomputable section

open scoped BigOperators

namespace Cert.Gcn

open Idealize.ShloMosaic Idealize.ShloMosaic.ValueIdx Cert.ReferenceIdeal Cert.ReferenceIdeal.Gen Cert.LibReal

/-- The node an edge's source word names: the word wrapped, read signed, clamped into range. -/
def srcOf (row : EdgeW) (k : Fin 650000) : Fin 50000 :=
  ⟨min ((wrapW row) (ix1 k)).toInt.toNat (50000 - 1), by omega⟩

/-- The edges whose destination word names node j. -/
def edgesInto (col : EdgeW) (j : Fin 50000) : Finset (Fin 650000) :=
  Finset.univ.filter (fun k : Fin 650000 => Cert.LibRowScatter.lands 50000 (col (ix1 k)) = some j)

namespace AggReadAux

/-- The matrix scatter-add read at an entry. -/
theorem scat_apply (x : Feat) (idx : IVec S650000x1 32) (upd : FVec Ideal S650000x128 .f32) (j : Fin 50000) (q : Fin 128) :
    Host.scatterAdd (F := Ideal) scatter_S50000x128_S650000x1_S650000x128_1_0_0_1 x idx upd (ix2 j q)
      = x (ix2 j q) + ∑ k ∈ Finset.univ.filter (fun k : Fin 650000 =>
          Cert.LibRowScatter.lands 50000 (idx (ix2 k (⟨0, Nat.one_pos⟩ : Fin 1))) = some j), upd (ix2 k q) :=
  Cert.LibRowScatter.rowScatter_apply scatter_S50000x128_S650000x1_S650000x128_1_0_0_1_wf x idx upd j q

/-- The matrix gather read at an entry. -/
theorem take_apply (x : Feat) (idx : IVec S650000x1 32) (k : Fin 650000) (q : Fin 128) :
    Host.gather gather_S50000x128_S650000x1_S650000x128_1_0_n_n_0_1_1128 x idx (ix2 k q)
      = x (ix2 ⟨min (idx (ix2 k (⟨0, Nat.one_pos⟩ : Fin 1))).toInt.toNat (50000 - 1), by omega⟩ q) :=
  Cert.LibTake.rowTake_apply (by omega) gather_S50000x128_S650000x1_S650000x128_1_0_n_n_0_1_1128_wf x idx (ix2 k q)

/-- A column of start indices read at row k is the word k. -/
theorem colI_apply (v : EdgeW) (k : Fin 650000) (u : Fin 1) : colI v (ix2 k u) = v (ix1 k) :=
  Cert.LibTake.bcastCol_apply bcast_S650000_S650000x1_0 v k u

/-- The edge weights carried across the columns, read at an entry. -/
theorem nrmAcross_apply (nrm : EdgeR) (k : Fin 650000) (q : Fin 128) :
    broadcastInDim S650000x128 ![0, 1] bcast_S650000x1_S650000x128_0_1
        (broadcastInDim S650000x1 ![0] bcast_S650000_S650000x1_0 nrm) (ix2 k q) = nrm (ix1 k) :=
  (Cert.LibTake.bcastAcross_apply bcast_S650000x1_S650000x128_0_1 _ k q).trans
    (Cert.LibTake.bcastCol_apply bcast_S650000_S650000x1_0 nrm k _)

/-- The zero array read at an entry. -/
theorem zeros2_apply (i : S50000x128.Idx) :
    broadcastInDim S50000x128 ![] bcast_S_S50000x128 (constant (F := Ideal) S_ .f32 0x00000000#32) i = 0 :=
  Ideal.ofBits_zero_f32

end AggReadAux

/-- Entry (j, q) of an aggregation. -/
theorem agg_apply (row col : EdgeW) (nrm : EdgeR) (h : Feat) (j : Fin 50000) (q : Fin 128) :
    agg row col nrm h (ix2 j q) = 0 + ∑ k ∈ edgesInto col j, h (ix2 (srcOf row k) q) * nrm (ix1 k) := by
  unfold agg
  refine (AggReadAux.scat_apply _ _ _ j q).trans ?_
  rw [AggReadAux.zeros2_apply]
  refine congrArg (0 + ·) ?_
  unfold edgesInto
  refine Finset.sum_congr (Finset.filter_congr fun k _ => by rw [AggReadAux.colI_apply]) (fun k _ => ?_)
  rw [mulf_apply, AggReadAux.take_apply, AggReadAux.nrmAcross_apply]
  refine congrArg (· * nrm (ix1 k)) ?_
  refine congrArg h ?_
  refine congrArg (fun a => ix2 a q) ?_
  refine Fin.ext ?_
  show min ((colI (wrapW row)) (ix2 k (⟨0, Nat.one_pos⟩ : Fin 1))).toInt.toNat (50000 - 1) = min ((wrapW row) (ix1 k)).toInt.toNat (50000 - 1)
  rw [AggReadAux.colI_apply]

namespace AggReadAux

/-- The word of 1.0 denotes the real one. -/
theorem ofBits_one_f32 : Ideal.ofBits .f32 0x3F800000#32 = 1 := by
  simp [Ideal.ofBits, Ideal.ieee, -EReal.coe_mul]; norm_num

/-- The word of -0.5 denotes the real -1/2. -/
theorem ofBits_neg_half_f32 : Ideal.ofBits .f32 0xBF000000#32 = ((-(1 / 2) : ℝ) : EReal) := by
  simp [Ideal.ofBits, Ideal.ieee, -EReal.coe_mul]; norm_num

/-- A node number, as a 32-bit word read signed, is itself. -/
theorem toInt_ofNat_node (n : Nat) (h : n < 50000) : (BitVec.ofNat 32 n).toInt = (n : Int) := by
  rw [BitVec.toInt_eq_toNat_cond, BitVec.toNat_ofNat]
  have e : n % 2 ^ 32 = n := Nat.mod_eq_of_lt (by omega)
  rw [e]
  split <;> omega

end AggReadAux

namespace AggReadAux

/-- The vector scatter-add read at an entry: the operand's entry plus the updates that land there. -/
theorem vscat_apply (x : NodeR) (idx : IVec S650000x1 32) (upd : EdgeR) (i : S50000.Idx) :
    Host.scatterAdd (F := Ideal) scatter_S50000_S650000x1_S650000_n_0_0_1 x idx upd i
      = x i + ∑ u ∈ Finset.univ.filter (fun u : S650000.Idx =>
          (Cert.LibVecScatter.vecScatter 50000 650000 scatter_S50000_S650000x1_S650000_n_0_0_1_wf).resultIdx? u idx = some i), upd u := rfl

/-- The self-loop of node j sits at position 600000 + j of the destination words and names j. -/
theorem colW_self (e : Edges) (j : Fin 50000) :
    colW e (ix1 (⟨600000 + j.val, by omega⟩ : Fin 650000)) = BitVec.ofNat 32 j.val :=
  Cert.LibVecScatter.concat1_right concatenates_S600000_S50000_S650000_d0 _ (iotaInDim S50000 32 0) j (by omega)

end AggReadAux

namespace AggReadAux

/-- The degree of node j is a real number at least one: its self-loop is among the edges counted. -/
theorem deg_real (e : Edges) (j : Fin 50000) : ∃ r : ℝ, 1 ≤ r ∧ deg (colW e) (ix1 j) = (r : EReal) := by
  classical
  -- the self-loop's position, and that its update lands on entry j
  have hmem : ix1 (⟨600000 + j.val, by omega⟩ : Fin 650000) ∈ Finset.univ.filter (fun u : S650000.Idx =>
      (Cert.LibVecScatter.vecScatter 50000 650000 scatter_S50000_S650000x1_S650000_n_0_0_1_wf).resultIdx? u (colI (colW e))
        = some (ix1 j)) := by
    refine Finset.mem_filter.mpr ⟨Finset.mem_univ _, ?_⟩
    refine (Cert.LibVecScatter.vecScatter_lands _ _ _ j).mpr ?_
    show (colI (colW e) (ix2 (⟨600000 + j.val, by omega⟩ : Fin 650000) (⟨0, Nat.one_pos⟩ : Fin 1))).toInt = (j.val : Int)
    rw [colI_apply, colW_self]
    exact toInt_ofNat_node j.val j.isLt
  -- the rest of the sum is a nonnegative real
  obtain ⟨r, hr, er⟩ := Cert.LibReal.sum_ones ((Finset.univ.filter (fun u : S650000.Idx =>
      (Cert.LibVecScatter.vecScatter 50000 650000 scatter_S50000_S650000x1_S650000_n_0_0_1_wf).resultIdx? u (colI (colW e))
        = some (ix1 j))).erase (ix1 (⟨600000 + j.val, by omega⟩ : Fin 650000)))
  refine ⟨1 + r, by linarith, ?_⟩
  unfold deg
  refine (vscat_apply _ _ _ (ix1 j)).trans ?_
  have hz : broadcastInDim S50000 ![] bcast_S_S50000 (constant (F := Ideal) S_ .f32 0x00000000#32) (ix1 j) = 0 :=
    Ideal.ofBits_zero_f32
  have hone : ∀ u : S650000.Idx,
      broadcastInDim S650000 ![] bcast_S_S650000 (constant (F := Ideal) S_ .f32 0x3F800000#32) u = ((1 : ℝ) : EReal) :=
    fun _ => ofBits_one_f32.trans EReal.coe_one.symm
  rw [hz, zero_add, Finset.sum_congr rfl (fun u _ => hone u), ← Finset.add_sum_erase _ _ hmem, er, ← EReal.coe_add]

end AggReadAux

/-- Clamping the degree from below by one changes nothing: every node has its self-loop. -/
theorem clamp_deg (e : Edges) : clampOne (deg (colW e)) = deg (colW e) := by
  funext i
  obtain ⟨a, rfl⟩ : ∃ a : Fin 50000, i = ix1 a := ⟨i 0, eq_ix1 i⟩
  obtain ⟨r, hr, er⟩ := AggReadAux.deg_real e a
  have h1 : broadcastInDim S50000 ![] bcast_S_S50000 (constant (F := Ideal) S_ .f32 0x3F800000#32) (ix1 a) = 1 :=
    AggReadAux.ofBits_one_f32
  unfold clampOne
  rw [maximumf_apply, h1, er]
  exact max_eq_left (by exact_mod_cast hr)

/-- So the kernel's edge weights are the reference's. -/
theorem nrmK_eq_nrmR (e : Edges) : nrmK e = nrmR e := by
  unfold nrmK nrmR; rw [clamp_deg]

namespace AggReadAux

/-- The vector gather read at an entry. -/
theorem vtake_apply (x : NodeR) (idx : IVec S650000x1 32) (k : Fin 650000) :
    Host.gather gather_S50000_S650000x1_S650000_n_0_n_n_0_1_1 x idx (ix1 k)
      = x (ix1 ⟨min (idx (ix2 k (⟨0, Nat.one_pos⟩ : Fin 1))).toInt.toNat (50000 - 1), by omega⟩) :=
  Cert.LibTake.vecTake_apply (by omega) gather_S50000_S650000x1_S650000_n_0_n_n_0_1_1_wf x idx (ix1 k)

/-- A node's weight read at an entry: the entry to the power the exponent word denotes. -/
theorem dinv_apply (d : NodeR) (i : S50000.Idx) :
    dinv d i = Ideal.pow (d i) (Ideal.ofBits .f32 0xBF000000#32) := rfl

/-- A node's weight is a real number: its degree is a real at least one, whose power -1/2 is its inverse square root. -/
theorem dinv_real (e : Edges) (a : Fin 50000) : IsR (dinv (deg (colW e)) (ix1 a)) := by
  obtain ⟨r, hr, er⟩ := deg_real e a
  have hpos : 0 < r := by linarith
  rw [dinv_apply, er, ofBits_neg_half_f32, Cert.LibSymNorm.pow_neg_half hpos]
  exact isR_rsqrt hpos

end AggReadAux

/-- Every edge weight is a real number. -/
theorem nrmR_real (e : Edges) : AllR (nrmR e) := by
  intro i
  obtain ⟨k, rfl⟩ : ∃ k : Fin 650000, i = ix1 k := ⟨i 0, eq_ix1 i⟩
  unfold nrmR norm
  rw [mulf_apply, AggReadAux.vtake_apply, AggReadAux.vtake_apply]
  exact (AggReadAux.dinv_real e _).mul (AggReadAux.dinv_real e _)

end Cert.Gcn

end
-- ==== Proof.Layers.lean ====
/-
  The two programs compute one function of real inputs.

  Layers one and two agree operation by operation once the edge weights agree: a kernel region's product is the host's
  product, its maximum with zero the host's.  In the last layer the reference aggregates x · W3 and multiplies by Wh, the
  kernel aggregates x · (W3 · Wh).  Both are the triple sum of  x (s k, a) · W3 (a, b) · Wh (b, q) · n k  over the edges k
  into a node and the inner positions a, b, grouped differently; on the extended reals regrouping a product over a sum
  needs every entry real, which holds because the inputs are real, the edge weights are real, and sums, products and
  maxima of reals are real.
-/
import proofs.«127493_j38714835206720_2_alg».proof.Proof.AggRead

noncomputable section

open scoped BigOperators

namespace Cert.Gcn

open Idealize.ShloMosaic Idealize.ShloMosaic.ValueIdx Cert.ReferenceIdeal Cert.ReferenceIdeal.Gen Cert.LibReal

namespace LayersAux

open Cert.LibMatmul

/-! ### The host's products are index-wise products -/

/-- The host's product of node features with a weight matrix is the sum over the inner position. -/
theorem dotH_eq (x : Feat) (w : Wt) : dotH x w = MM x w :=
  dotGeneral_eq dot_S50000x128_S128x128_S50000x128_1_0_0_1_n_n rfl rfl rfl rfl rfl rfl none .single x w

/-- The host's product of two weight matrices is the sum over the inner position. -/
theorem dotW_eq (w3 wh : Wt) : dotW w3 wh = MM w3 wh :=
  dotGeneral_eq Cert.KernelIdeal.dot_S128x128_S128x128_S128x128_1_0_0_1_n_n rfl rfl rfl rfl rfl rfl none .single w3 wh

/-- A kernel region's product is the host's. -/
theorem linK_eq (x : Feat) (w : Wt) : linK x w = dotH x w := (dotH_eq x w).symm

/-! ### The maximum with zero -/

/-- The maximum with zero read at an index. -/
theorem relu0_apply (y : Feat) (i : S50000x128.Idx) : relu0 y i = max (y i) 0 := by
  unfold relu0
  rw [maximumf_apply]
  congr 1
  unfold broadcastInDim
  rw [constant_apply, Ideal.ofBits_zero_f32]

/-- A kernel region's maximum with zero of an array plus a product is the host's. -/
theorem combK_eq (a x : Feat) (r : Wt) : combK a x r = relu0 (addf (F := Ideal) a (dotH x r)) := by
  funext i
  rw [relu0_apply, addf_apply, dotH_eq]
  rfl

/-! ### The first two layers -/

/-- The kernel's first layer is the reference's. -/
theorem x1K_eq (x : Feat) (e : Edges) (w1 r1 : Wt) :
    x1K x e w1 r1 = layerR (rowW e) (colW e) (nrmR e) x w1 r1 := by
  unfold x1K layerR
  rw [combK_eq, linK_eq, nrmK_eq_nrmR]

/-- The kernel's second layer is the reference's. -/
theorem x2K_eq (x : Feat) (e : Edges) (w1 r1 w2 r2 : Wt) :
    x2K x e w1 r1 w2 r2
      = layerR (rowW e) (colW e) (nrmR e) (layerR (rowW e) (colW e) (nrmR e) x w1 r1) w2 r2 := by
  unfold x2K layerR
  rw [combK_eq, linK_eq, nrmK_eq_nrmR, x1K_eq]
  rfl

/-! ### Real entries stay real -/

/-- A product of arrays of reals is an array of reals. -/
theorem allR_MM {A K B : Nat} (x : (⟨2, ![A, K]⟩ : Shape).Idx → EReal) (w : (⟨2, ![K, B]⟩ : Shape).Idx → EReal)
    (hx : AllR x) (hw : AllR w) : AllR (MM x w) := fun i =>
  IsR.sum _ _ fun k _ => (hx _).mul (hw _)

/-- An aggregation of an array of reals with real edge weights is an array of reals. -/
theorem allR_agg (row col : EdgeW) (nrm : EdgeR) (h : Feat) (hn : AllR nrm) (hh : AllR h) :
    AllR (agg row col nrm h) := fun i => by
  obtain ⟨j, q, rfl⟩ : ∃ (j : Fin 50000) (q : Fin 128), i = ix2 j q := ⟨i 0, i 1, eq_ix2 i⟩
  rw [agg_apply]
  exact isR_zero.add (IsR.sum _ _ fun k _ => (hh _).mul (hn _))

/-- One layer keeps the entries real. -/
theorem allR_layerR (row col : EdgeW) (nrm : EdgeR) (x : Feat) (w r : Wt)
    (hn : AllR nrm) (hx : AllR x) (hw : AllR w) (hr : AllR r) : AllR (layerR row col nrm x w r) := fun i => by
  unfold layerR
  rw [relu0_apply, addf_apply, dotH_eq, dotH_eq]
  exact ((allR_agg row col nrm _ hn (allR_MM x w hx hw) i).add (allR_MM x r hx hr i)).max isR_zero

/-! ### The bias -/

/-- The kernel's bias step read at an index. -/
theorem biasK_apply (a : Feat) (bh : Bias) (j : Fin 50000) (q : Fin 128) :
    biasK a (biasRow bh) (ix2 j q) = a (ix2 j q) + bh (ix1 q) := by
  unfold biasK biasRow
  rw [Cert.LibTake.castRow_apply]

/-- The reference's bias step read at an index. -/
theorem biasAll_apply (a : Feat) (bh : Bias) (j : Fin 50000) (q : Fin 128) :
    addf (F := Ideal) a (biasAll bh) (ix2 j q) = a (ix2 j q) + bh (ix1 q) := by
  rw [addf_apply]
  unfold biasAll
  rw [Cert.LibTake.bcastDown_apply, Cert.LibTake.bcastRow_apply]

end LayersAux

namespace LayersAux

open Cert.LibMatmul

/-! ### The law of the last layer -/

/-- The coercion from the reals to the extended reals commutes with a finite sum. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- Over the reals: aggregating the rows of g · u over a set of edges and then multiplying by v is aggregating the rows
    of g · (u · v).  Both sides are the sum of  g k a · u a b · v b · n k  over (b, k, a), grouped differently. -/
theorem regroup_real {A B E : Type} [Fintype A] [Fintype B] (s : Finset E)
    (g : E → A → ℝ) (u : A → B → ℝ) (v : B → ℝ) (n : E → ℝ) :
    ∑ b, (∑ k ∈ s, (∑ a, g k a * u a b) * n k) * v b = ∑ k ∈ s, (∑ a, g k a * ∑ b, u a b * v b) * n k := by
  simp only [Finset.sum_mul, Finset.mul_sum]
  rw [Finset.sum_comm]
  refine Finset.sum_congr rfl fun k _ => ?_
  rw [Finset.sum_comm]
  exact Finset.sum_congr rfl fun a _ => Finset.sum_congr rfl fun b _ => by ring

/-- The same on the extended reals, when every entry is a real number. -/
theorem regroup_ereal {A B E : Type} [Fintype A] [Fintype B] (s : Finset E)
    (g : E → A → EReal) (u : A → B → EReal) (v : B → EReal) (n : E → EReal)
    (hg : ∀ k a, ∃ r : ℝ, g k a = r) (hu : ∀ a b, ∃ r : ℝ, u a b = r) (hv : ∀ b, ∃ r : ℝ, v b = r)
    (hn : ∀ k, ∃ r : ℝ, n k = r) :
    ∑ b, (0 + ∑ k ∈ s, (∑ a, g k a * u a b) * n k) * v b
      = 0 + ∑ k ∈ s, (∑ a, g k a * ∑ b, u a b * v b) * n k := by
  choose gr hgr using hg
  choose ur hur using hu
  choose vr hvr using hv
  choose nr hnr using hn
  simp only [zero_add, hgr, hur, hvr, hnr, ← EReal.coe_mul, ← coe_sum]
  exact congrArg _ (regroup_real s gr ur vr nr)

/-- Aggregating h · W3 and then multiplying by Wh is aggregating h · (W3 · Wh), entry by entry, on real arrays. -/
theorem agg_MM (row col : EdgeW) (nrm : EdgeR) (h : Feat) (w3 wh : Wt)
    (hn : AllR nrm) (hh : AllR h) (hw3 : AllR w3) (hwh : AllR wh) (j : Fin 50000) (q : Fin 128) :
    MM (agg row col nrm (MM h w3)) wh (ix2 j q) = agg row col nrm (MM h (MM w3 wh)) (ix2 j q) := by
  rw [MM_apply, agg_apply]
  simp only [agg_apply, MM_apply]
  exact regroup_ereal (edgesInto col j) (fun k a => h (ix2 (srcOf row k) a)) (fun a b => w3 (ix2 a b))
    (fun b => wh (ix2 b q)) (fun k => nrm (ix1 k)) (fun k a => hh _) (fun a b => hw3 _) (fun b => hwh _) (fun k => hn _)

end LayersAux

/-- On real features and real weight matrices the kernel's result is the reference's. -/
theorem kernel_eq_reference (x : Feat) (e : Edges) (w1 r1 w2 r2 w3 wh : Wt) (bh : Bias)
    (hx : AllR x) (hw1 : AllR w1) (hr1 : AllR r1) (hw2 : AllR w2) (hr2 : AllR r2) (hw3 : AllR w3) (hwh : AllR wh) :
    kerOut x e w1 r1 w2 r2 w3 wh bh = refOut x e w1 r1 w2 r2 w3 wh bh := by
  funext i
  obtain ⟨j, q, rfl⟩ : ∃ (j : Fin 50000) (q : Fin 128), i = ix2 j q := ⟨i 0, i 1, eq_ix2 i⟩
  have hn : AllR (nrmR e) := nrmR_real e
  have hx2 : AllR (layerR (rowW e) (colW e) (nrmR e) (layerR (rowW e) (colW e) (nrmR e) x w1 r1) w2 r2) :=
    LayersAux.allR_layerR _ _ _ _ _ _ hn (LayersAux.allR_layerR _ _ _ _ _ _ hn hx hw1 hr1) hw2 hr2
  show biasK (agg (rowW e) (colW e) (nrmK e) (linK (x2K x e w1 r1 w2 r2) (dotW w3 wh))) (biasRow bh) (ix2 j q)
    = addf (F := Ideal)
        (dotH (agg (rowW e) (colW e) (nrmR e)
          (dotH (layerR (rowW e) (colW e) (nrmR e) (layerR (rowW e) (colW e) (nrmR e) x w1 r1) w2 r2) w3)) wh)
        (biasAll bh) (ix2 j q)
  rw [LayersAux.biasK_apply, LayersAux.biasAll_apply, LayersAux.x2K_eq, nrmK_eq_nrmR, LayersAux.linK_eq,
    LayersAux.dotW_eq, LayersAux.dotH_eq, LayersAux.dotH_eq, LayersAux.dotH_eq]
  exact congrArg (· + bh (ix1 q)) (LayersAux.agg_MM _ _ _ _ _ _ hn hx2 hw3 hwh j q).symm

end Cert.Gcn

end
-- ==== Proof.Finite.lean ====
/-
  The precondition says every float input is finite: the absolute value of every entry is below +infinity.  An
  extended real whose absolute value is below +infinity is a real number.

  The precondition is a conjunction, over the eight float inputs, of "and over all entries of (|x| < +infinity)",
  +infinity being the f32 word 0x7F800000.  A conjunction of i1 scalars is 1 exactly when each is; an "and" over
  all entries is 1 only when every entry is 1; and max x (-x) < +infinity excludes x = -infinity and x = +infinity.
-/
import proofs.«127493_j38714835206720_2_alg».proof.Defs
import proofs.«127493_j38714835206720_2_alg».proof.Proof.Gen.Pre_finite_inputs
import proofs.«127493_j38714835206720_2_alg».proof.Proof.LibReal
import Idealize.ShloMosaic.Lib.ReduceAll

noncomputable section

namespace Cert.Gcn.FiniteAux

open Idealize.ShloMosaic Cert.LibReal Cert.Pre_finite_inputs

/-- The scalar shape has exactly one index. -/
theorem scalar_idx_subsingleton : Subsingleton S_.Idx := ⟨fun _ _ => funext fun d => d.elim0⟩

/-- The one index of the scalar shape. -/
def j0 : S_.Idx := fun d => d.elim0

/-- The f32 word 0x7F800000 denotes +infinity. -/
theorem inf_word : Ideal.ofBits .f32 0x7F800000#32 = (⊤ : EReal) := by simp [Ideal.ofBits, Ideal.ieee]

/-- An extended real whose absolute value max x (-x) is strictly below +infinity is a real number: at -infinity and
    at +infinity the absolute value is +infinity itself. -/
theorem isR_of_abs_lt_top (x : EReal) (h : max x (-x) < ⊤) : IsR x := by
  induction x using EReal.rec with
  | bot => simp at h
  | coe r => exact ⟨r, rfl⟩
  | top => simp at h

/-- An i1 word made from a Boolean is 1 exactly when the Boolean is true. -/
theorem ofBool_eq_one (b : Bool) : BitVec.ofBool b = 1#1 ↔ b = true := by cases b <;> decide

/-- A conjunction of two i1 scalars is 1 only when both are. -/
theorem andi_at {a b : IVec S_ 1} (j : S_.Idx) (h : andi a b j = 1#1) : a j = 1#1 ∧ b j = 1#1 :=
  IntOp.andi_eq_one.1 h

/-- For an array x of any shape: if the "and" over all entries of (|x| < +infinity) is 1, every entry of x is a real
    number.  The "and" being 1 gives the comparison 1 at each entry i; there the comparison reads
    max (x i) (-(x i)) < +infinity, whatever entry of the scalar the broadcast reads. -/
theorem allR_of_all {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf x) (broadcastInDim S ![] hb (constant S_ .f32 0x7F800000#32)))
      (constantI S_ 1 1#1) hr hu j = 1#1) : AllR x := by
  intro i
  haveI := scalar_idx_subsingleton
  have h1 := Host.reduce_andi_all _ _ hr hu j e i
  have h2 : BitVec.ofBool (decide (max (x i) (-(x i)) < Ideal.ofBits .f32 0x7F800000#32)) = 1#1 := h1
  rw [inf_word, ofBool_eq_one, decide_eq_true_eq] at h2
  exact isR_of_abs_lt_top _ h2

end Cert.Gcn.FiniteAux

namespace Cert.Gcn

open Idealize.ShloMosaic Idealize.ShloMosaic.TcCoe Idealize.SL.Sem Cert.KernelIdeal Cert.LibReal

/-- Under the precondition every entry of the features and of the six weight matrices is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllR (m ((c.tc : Thread nD τ).loc main_arg0)) ∧ AllR (m ((c.tc : Thread nD τ).loc main_arg2))
    ∧ AllR (m ((c.tc : Thread nD τ).loc main_arg3)) ∧ AllR (m ((c.tc : Thread nD τ).loc main_arg4))
    ∧ AllR (m ((c.tc : Thread nD τ).loc main_arg5)) ∧ AllR (m ((c.tc : Thread nD τ).loc main_arg6))
    ∧ AllR (m ((c.tc : Thread nD τ).loc main_arg7)) := by
  -- the precondition on device c, read at the scalar's one index: a chain of eight conjuncts, one per float input
  have e := congrFun (h c) FiniteAux.j0
  dsimp only [Cert.Pre_finite_inputs.fn, Cert.Pre_finite_inputs.fn_part1, Cert.Pre_finite_inputs.fn_part2] at e
  -- peel the conjuncts from the outside in: the bias (not needed), then inputs 7, 6, 5, 4, 3, and last 0 with 2
  obtain ⟨e, -⟩ := FiniteAux.andi_at _ e
  obtain ⟨e, e7⟩ := FiniteAux.andi_at _ e
  obtain ⟨e, e6⟩ := FiniteAux.andi_at _ e
  obtain ⟨e, e5⟩ := FiniteAux.andi_at _ e
  obtain ⟨e, e4⟩ := FiniteAux.andi_at _ e
  obtain ⟨e, e3⟩ := FiniteAux.andi_at _ e
  obtain ⟨e0, e2⟩ := FiniteAux.andi_at _ e
  exact ⟨FiniteAux.allR_of_all _ _ _ _ _ e0, FiniteAux.allR_of_all _ _ _ _ _ e2, FiniteAux.allR_of_all _ _ _ _ _ e3,
    FiniteAux.allR_of_all _ _ _ _ _ e4, FiniteAux.allR_of_all _ _ _ _ _ e5, FiniteAux.allR_of_all _ _ _ _ _ e6,
    FiniteAux.allR_of_all _ _ _ _ _ e7⟩

end Cert.Gcn

end
-- ==== Proof.lean ====
/-
  A three-layer graph convolution on 50000 nodes with 128 features, a Pallas kernel against its jnp reference, equal as
  functions on the extended reals when every float input is finite.

  Both programs extend the edge list by one self-loop per node, count each node's degree, weight an edge by the product
  of its end nodes' degrees to the power -1/2, and aggregate: A h (j, ·) = Σ over the edges k into j of h (source k, ·) · n k.
  The reference computes  x1 = max (A (x · W1) + x · R1) 0,  x2 = max (A (x1 · W2) + x1 · R2) 0,  A (x2 · W3) · Wh + bh.
  The kernel differs in two places.  It clamps the degree from below by 1 before the power: every node has its
  self-loop, so the degree is at least 1 and the clamp is the identity.  And it computes the last layer as
  A (x2 · (W3 · Wh)) + bh: A is a sum of multiples of rows, so A (h · W) = (A h) · W, and the product of matrices is
  associative — both by distributivity, which on the extended reals needs every entry real; the inputs are real by the
  precondition, the edge weights because the degree is a real at least 1, and sums, products and maxima of reals are
  real.  The kernel's changes of float format are the identity at the ideal values, its six regions each leave in their
  output array one whole-array function of the arrays they find (a row block of a matrix product is the product of the
  row block), and its host operations between the regions are the reference's own.
-/
import proofs.«127493_j38714835206720_2_alg».proof.Defs
import proofs.«127493_j38714835206720_2_alg».proof.Proof.Gen.Kernel
import proofs.«127493_j38714835206720_2_alg».proof.Proof.Gen.Kernel.Skeleton
import proofs.«127493_j38714835206720_2_alg».proof.Proof.Gen.Kernel.Launch
import proofs.«127493_j38714835206720_2_alg».proof.Proof.Gen.Kernel.Points
import proofs.«127493_j38714835206720_2_alg».proof.Proof.Gen.Kernel.Frame
import proofs.«127493_j38714835206720_2_alg».proof.Proof.Gen.KernelIdeal
import proofs.«127493_j38714835206720_2_alg».proof.Proof.Gen.KernelIdeal.Skeleton
import proofs.«127493_j38714835206720_2_alg».proof.Proof.Gen.KernelIdeal.Launch
import proofs.«127493_j38714835206720_2_alg».proof.Proof.Gen.KernelIdeal.Points
import proofs.«127493_j38714835206720_2_alg».proof.Proof.Gen.KernelIdeal.Frame
import proofs.«127493_j38714835206720_2_alg».proof.Proof.Gen.ReferenceIdeal
import proofs.«127493_j38714835206720_2_alg».proof.Proof.Gen.Pre_finite_inputs
import proofs.«127493_j38714835206720_2_alg».proof.Proof.Gen.ReferenceIdeal.Run
import proofs.«127493_j38714835206720_2_alg».proof.Proof.KernelRun
import proofs.«127493_j38714835206720_2_alg».proof.Proof.RefSide
import proofs.«127493_j38714835206720_2_alg».proof.Proof.ChainHead
import proofs.«127493_j38714835206720_2_alg».proof.Proof.ChainTail
import proofs.«127493_j38714835206720_2_alg».proof.Proof.Layers
import proofs.«127493_j38714835206720_2_alg».proof.Proof.Finite
import Idealize.ShloMosaic.Adequacy
import Idealize.ShloMosaic.Init

noncomputable section

namespace Cert.Proof

open Idealize.ShloMosaic Idealize.ShloMosaic.TcCoe Idealize.SL.Sem

/-! ## The kernel's result buffer -/

section KernelResult

open Cert.KernelIdeal Cert.KernelIdeal.Gen Cert.Gcn

/-- At the last boundary the result buffer holds the kernel's function of the arguments: the first three regions and
    the host operations around them fix what the boundary after region 2 holds, the rest of the program maps that to
    the result. -/
theorem kernel_result (m : (ℓ : Loc nD τ sig) → Buf (Elt Ideal) ℓ) (ρ : Dev nD → PrngReg) (c : Dev nD) :
    W11 m ρ c (Proc.devRef .tc main_v79)
      = kerOut (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨h45, h46, h3, h6, h29, h5, h6', h7, h8⟩ := Cert.KernelIdeal.Chain.head m ρ c
  exact Cert.KernelIdeal.Chain.tail m ρ c _ _ _ _ _ _ _ _ _ h45 h46 h3 h6 h29 h5 h6' h7 h8

end KernelResult

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the kernel's function of the arguments in the result
    buffer: the kernel by its run and `kernel_result`, the reference because its run's term is the specification's
    function, which on the precondition's real inputs is the kernel's. -/
theorem algebraic : Cert.algebraic_KernelIdeal_ReferenceIdeal := by
  intro m ρ m' ρ' hpre hagree
  refine ⟨fun c => Cert.Gcn.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (kernel_result m ρ c), (h c).2⟩) (Cert.KernelIdeal.ValueRun.run m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    obtain ⟨r0, r2, r3, r4, r5, r6, r7⟩ := Cert.Gcn.real_of_pre m hpre c
    rw [(h c).1, Cert.Gcn.ref_result, e0, e1, e2, e3, e4, e5, e6, e7, e8]
    exact (Cert.Gcn.kernel_eq_reference _ _ _ _ _ _ _ _ _ r0 r2 r3 r4 r5 r6 r7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
